-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x2048 : Shape := ⟨2, ![2048, 2048]⟩
abbrev S512x2048 : Shape := ⟨2, ![512, 2048]⟩
abbrev S2048 : Shape := ⟨1, ![2048]⟩
abbrev S2048x128 : Shape := ⟨2, ![2048, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x128 : S_.BroadcastsInDim S2048x128 (![] : Fin 0 → Fin S2048x128.rank)
  reducesTo_S2048x128_S_d0_1 : S2048x128.ReducesTo [0, 1] S_

variable [Facts]

def fn_part4 {F : FTy → Type} [FloatOps F] (main_arg14 : FVec F S2048x2048 .f32) (main_arg15 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  main_v78

def fn_part3 {F : FTy → Type} [FloatOps F] (main_arg11 : FVec F S2048x2048 .f32) (main_arg12 : FVec F S2048 .f32) (main_arg13 : FVec F S2048x128 .f32) (main_arg14 : FVec F S2048x2048 .f32) (main_arg15 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x128 .f32 := Host.absf main_arg13
  let main_cst_24 : FVec F S_ .f32 := constant S_ .f32 0x7F800000#32
  let main_v65 : FVec F S2048x128 .f32 := broadcastInDim S2048x128 ![] bcast_S_S2048x128 main_cst_24
  let main_v66 : IVec S2048x128 1 := cmpf .olt main_v64 main_v65
  let main_c_25 : IVec S_ 1 := constantI S_ 1 1#1
  let main_v67 : IVec S_ 1 := (fun x v => Host.reduce IntOp.andi x v reducesTo_S2048x128_S_d0_1 h_S_) main_v66 main_c_25
  fn_part4 (F := F) main_arg14 main_arg15 main_v63 main_v67

def fn_part2 {F : FTy → Type} [FloatOps F] (main_arg7 : FVec F S2048x2048 .f32) (main_arg8 : FVec F S2048x2048 .f32) (main_arg9 : FVec F S2048 .f32) (main_arg10 : FVec F S2048x2048 .f32) (main_arg11 : FVec F S2048x2048 .f32) (main_arg12 : FVec F S2048 .f32) (main_arg13 : FVec F S2048x128 .f32) (main_arg14 : FVec F S2048x2048 .f32) (main_arg15 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_v48 main_v49 main_v50

def fn_part1 {F : FTy → Type} [FloatOps F] (main_arg4 : FVec F S512x2048 .f32) (main_arg5 : FVec F S2048x2048 .f32) (main_arg6 : FVec F S2048 .f32) (main_arg7 : FVec F S2048x2048 .f32) (main_arg8 : FVec F S2048x2048 .f32) (main_arg9 : FVec F S2048 .f32) (main_arg10 : FVec F S2048x2048 .f32) (main_arg11 : FVec F S2048x2048 .f32) (main_arg12 : FVec F S2048 .f32) (main_arg13 : FVec F S2048x128 .f32) (main_arg14 : FVec F S2048x2048 .f32) (main_arg15 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2048x512 .f32) (main_arg1 : FVec F S2048x2048 .f32) (main_arg2 : FVec F S2048x2048 .f32) (main_arg3 : FVec F S2048x2048 .f32) (main_arg4 : FVec F S512x2048 .f32) (main_arg5 : FVec F S2048x2048 .f32) (main_arg6 : FVec F S2048 .f32) (main_arg7 : FVec F S2048x2048 .f32) (main_arg8 : FVec F S2048x2048 .f32) (main_arg9 : FVec F S2048 .f32) (main_arg10 : FVec F S2048x2048 .f32) (main_arg11 : FVec F S2048x2048 .f32) (main_arg12 : FVec F S2048 .f32) (main_arg13 : FVec F S2048x128 .f32) (main_arg14 : FVec F S2048x2048 .f32) (main_arg15 : FVec F S2048x2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2048x512 : Shape := ⟨2, ![2048, 512]⟩
abbrev S2048x2048 : Shape := ⟨2, ![2048, 2048]⟩
abbrev S512x2048 : Shape := ⟨2, ![512, 2048]⟩
abbrev S2048 : Shape := ⟨1, ![2048]⟩
abbrev S2048x128 : Shape := ⟨2, ![2048, 128]⟩
abbrev S_ : Shape := ⟨0, ![]⟩
abbrev S1x2048 : Shape := ⟨2, ![1, 2048]⟩
abbrev S128x512 : Shape := ⟨2, ![128, 512]⟩
abbrev S128x2048 : Shape := ⟨2, ![128, 2048]⟩
abbrev S128x128 : Shape := ⟨2, ![128, 128]⟩

abbrev nBuf : Space → Nat
  | .hbm => 45
  | .vmem => 26
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S512x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048x2048, .f32⟩
  | .hbm, ⟨12, _⟩ => ⟨S2048, .f32⟩
  | .hbm, ⟨13, _⟩ => ⟨S2048x128, .f32⟩
  | .hbm, ⟨14, _⟩ => ⟨S2048x2048, .f32⟩
  | .hbm, ⟨15, _⟩ => ⟨S2048x2048, .f32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | .hbm, ⟨28, _⟩ => ⟨S2048x2048, .f32⟩
  | .hbm, ⟨29, _⟩ => ⟨S2048x2048, .bf16⟩
  | .hbm, ⟨30, _⟩ => ⟨S2048x2048, .f32⟩
  | .hbm, ⟨31, _⟩ => ⟨S2048x2048, .bf16⟩
  | .hbm, ⟨32, _⟩ => ⟨S2048x2048, .f32⟩
  | .hbm, ⟨33, _⟩ => ⟨S2048x2048, .bf16⟩
  | .hbm, ⟨34, _⟩ => ⟨S2048x2048, .f32⟩
  | .hbm, ⟨35, _⟩ => ⟨S2048x2048, .bf16⟩
  | .hbm, ⟨36, _⟩ => ⟨S512x2048, .bf16⟩
  | .hbm, ⟨37, _⟩ => ⟨S2048x128, .bf16⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x128, .f32⟩
  | .local _ .vmem, ⟨0, _⟩ => ⟨S128x512, .f32⟩
  | .local _ .vmem, ⟨1, _⟩ => ⟨S128x512, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S512x2048, .bf16⟩
  | .local _ .vmem, ⟨9, _⟩ => ⟨S2048x2048, .bf16⟩
  | .local _ .vmem, ⟨10, _⟩ => ⟨S1x2048, .f32⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x2048, .bf16⟩
  | .local _ .vmem, ⟨15, _⟩ => ⟨S2048x2048, .bf16⟩
  | .local _ .vmem, ⟨16, _⟩ => ⟨S1x2048, .f32⟩
  | .local _ .vmem, ⟨17, _⟩ => ⟨S2048x128, .bf16⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x128, .f32⟩
  | .local _ .vmem, ⟨25, _⟩ => ⟨S128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S2048x2048 : S_.BroadcastsInDim S2048x2048 (![] : Fin 0 → Fin S2048x2048.rank)
  bitsLt_bf16_f32 : FTy.bits .bf16 < FTy.bits .f32
  shapeCasts_S2048_S1x2048 : S2048.ShapeCasts S1x2048
  inb_S128x512_S128x512_0_0 : ∀ a, (![0, 0] : Fin 2 → Nat) a + S128x512.size a ≤ S128x512.size a
  h_S128x512 : 0 < S128x512.numel
  inb_S128x2048_S128x2048_0_0 : ∀ a, (![0, 0] : Fin 2 → Nat) a + S128x2048.size a ≤ S128x2048.size a
  h_S128x2048 : 0 < S128x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  dot_S128x512_S512x2048_S128x2048_1_0_0_1_n_n_wf : DotDims.WF S128x512 S512x2048 S128x2048 [1] [0] [0] [1] [] []
  dot_S128x2048_S2048x2048_S128x2048_1_0_0_1_n_n_wf : DotDims.WF S128x2048 S2048x2048 S128x2048 [1] [0] [0] [1] [] []
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S2048x512.size a
  hwx0_0 : ∀ i : grid0.Coords, EltTy.bits .f32 = 32 ∨ (Rect.block (s := S2048x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S2048x2048.size a
  hwx0_1 : ∀ i : grid0.Coords, EltTy.bits .f32 = 32 ∨ (Rect.block (s := S2048x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S2048x2048.size a
  hwx0_2 : ∀ i : grid0.Coords, EltTy.bits .f32 = 32 ∨ (Rect.block (s := S2048x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .bf16 = 32 ∨ (Rect.block (s := S2048x2048) S2048x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S2048x128.size a
  hwx0_13 : ∀ i : grid0.Coords, EltTy.bits .bf16 = 32 ∨ (Rect.block (s := S2048x128) S2048x128.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S2048x2048.size a
  hwx0_14 : ∀ i : grid0.Coords, EltTy.bits .f32 = 32 ∨ (Rect.block (s := S2048x2048) S128x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x2048.size a ≤ S2048x2048.size a
  hwx0_15 : ∀ i : grid0.Coords, EltTy.bits .f32 = 32 ∨ (Rect.block (s := S2048x2048) S128x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x2048.size a ≤ S2048x2048.size a
  hwx0_16 : ∀ i : grid0.Coords, EltTy.bits .f32 = 32 ∨ (Rect.block (s := S2048x2048) S128x2048.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S2048x128.size a
  hwx0_17 : ∀ i : grid0.Coords, EltTy.bits .f32 = 32 ∨ (Rect.block (s := S2048x128) S128x128.size (cc0_transform_17 i) (hinb0_17 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S2048x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23_0) S128x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v23_1) S128x2048.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v23_2) S128x2048.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v23_3) S128x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x2048 : Shape := ⟨2, ![2048, 2048]⟩
abbrev S512x2048 : Shape := ⟨2, ![512, 2048]⟩
abbrev S2048 : Shape := ⟨1, ![2048]⟩
abbrev S2048x128 : Shape := ⟨2, ![2048, 128]⟩
abbrev S_ : Shape := ⟨0, ![]⟩
abbrev S1x2048 : Shape := ⟨2, ![1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S512x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048x2048, .f32⟩
  | .hbm, ⟨12, _⟩ => ⟨S2048, .f32⟩
  | .hbm, ⟨13, _⟩ => ⟨S2048x128, .f32⟩
  | .hbm, ⟨14, _⟩ => ⟨S2048x2048, .f32⟩
  | .hbm, ⟨15, _⟩ => ⟨S2048x2048, .f32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_cst : Ref sig .tc := ⟨.hbm, 55, rfl⟩
abbrev main_call1_v0 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call2_cst : Ref sig .tc := ⟨.hbm, 72, rfl⟩
abbrev main_call2_v0 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  dot_S2048x512_S512x2048_S2048x2048_1_0_0_1_n_n_wf : DotDims.WF S2048x512 S512x2048 S2048x2048 [1] [0] [0] [1] [] []
  dot_S2048x2048_S2048x2048_S2048x2048_1_0_0_1_n_n_wf : DotDims.WF S2048x2048 S2048x2048 S2048x2048 [1] [0] [0] [1] [] []
  dot_S2048x2048_S2048x128_S2048x128_1_0_0_1_n_n_wf : DotDims.WF S2048x2048 S2048x128 S2048x128 [1] [0] [0] [1] [] []

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

class Facts : Prop extends Facts₀ where

variable [Facts]
-- ==== Proof.Layer.lean ====
/-
  A stack of three leaky-integrator layers and a linear read-out, one batch row at a time.

  A layer keeps, for each of its n units, a state h. One step takes the row x of the layer below (a inputs), the
  layer's own previous row h, a feed-forward matrix Wx (a × n), a recurrent matrix Wh (n × n) and a bias b, and
  returns at unit q

      h q · keep + max (Σ k, x k · Wx k q + Σ k, h k · Wh k q + b q) 0 · gain

  with keep and gain two fixed numbers (the f32 words nearest 9/10 and 1/10; they are never evaluated here, the same
  word stands on both sides of every equation). Every row of the batch is treated alone, so a block of rows of the
  batch gives the same values as the whole batch read at those rows: `h0At_rows` … `outAt_rows`. All sums are finite
  sums on the extended reals; nothing here needs a sum to be re-associated or a factor to be moved, so no finiteness
  is asked of the data.
-/
import Idealize.ShloMosaic.PureOps.Ideal
import Idealize.ShloMosaic.Lib.ValueIdx

noncomputable section

namespace Cert.Leaky

open Idealize.ShloMosaic Idealize.ShloMosaic.ValueIdx
open scoped BigOperators

/-- The fraction of a unit's state that one step keeps. -/
abbrev keep : EReal := Ideal.ofBits .f32 0x3F666666#32
/-- The weight of the rectified drive in one step. -/
abbrev gain : EReal := Ideal.ofBits .f32 0x3DCCCCCD#32
/-- The rectifier's floor. -/
abbrev floor : EReal := Ideal.ofBits .f32 0x00000000#32

/-- An r × c array of extended reals. -/
abbrev Arr (r c : Nat) : Type := (⟨2, ![r, c]⟩ : Shape).Idx → EReal

/-- Row p of an array. -/
def row {r c : Nat} (A : Arr r c) (p : Fin r) : Fin c → EReal := fun k => A (ix2 p k)
/-- An array as a function of its two coordinates. -/
def mat {r c : Nat} (A : Arr r c) : Fin r → Fin c → EReal := fun k q => A (ix2 k q)
/-- A 1 × n array as a function of its free coordinate. -/
def vec {n : Nat} (b : Arr 1 n) : Fin n → EReal := fun q => b (ix2 (0 : Fin 1) q)

/-- The matrix that is 0 on the diagonal and 1 off it (1 − identity), as the host computes it from two index
    grids: multiplying a recurrent matrix by it removes every unit's connection to itself. -/
def offDiag : FVec Ideal ⟨2, ![2048, 2048]⟩ .f32 :=
  subf (broadcastInDim ⟨2, ![2048, 2048]⟩ ![] (by decide) (constant (F := Ideal) ⟨0, ![]⟩ .f32 0x3F800000#32))
    (uitofp .f32 (cmpi .eq
      (addi (iotaInDim ⟨2, ![2048, 2048]⟩ 32 0) (broadcastInDim ⟨2, ![2048, 2048]⟩ ![] (by decide) (constantI ⟨0, ![]⟩ 32 0#32)))
      (iotaInDim ⟨2, ![2048, 2048]⟩ 32 1)))

/-- A recurrent matrix with its diagonal removed. -/
def recur (w : Arr 2048 2048) : Arr 2048 2048 := mulf (F := Ideal) (φ := .f32) w offDiag
/-- A feed-forward matrix thinned by a mask of the same shape. -/
def mask (w msk : Arr 2048 2048) : Arr 2048 2048 := mulf (F := Ideal) (φ := .f32) w msk

/-- A bias vector as a 1 × 2048 row. -/
def biasRow (b : (⟨1, ![2048]⟩ : Shape).Idx → EReal) : Arr 1 2048 := shapeCast ⟨2, ![1, 2048]⟩ b (by decide)

/-- One unit of one layer after one step. -/
def unit {a n : Nat} (x : Fin a → EReal) (h : Fin n → EReal) (Wx : Fin a → Fin n → EReal)
    (Wh : Fin n → Fin n → EReal) (b : Fin n → EReal) (q : Fin n) : EReal :=
  h q * keep + max (((∑ k, x k * Wx k q) + ∑ k, h k * Wh k q) + b q) floor * gain

variable {R R' : Nat}
variable (X : Arr R 512) (S0 S1 S2 : Arr R 2048)
variable (Wi : Arr 512 2048) (A0 : Arr 2048 2048) (b0 : Arr 1 2048)
variable (A01 A1 : Arr 2048 2048) (b1 : Arr 1 2048)
variable (A12 A2 : Arr 2048 2048) (b2 : Arr 1 2048) (Wo : Arr 2048 128)

/-- Layer 0 at batch row p, unit q: driven by the input row. -/
def h0At (p : Fin R) (q : Fin 2048) : EReal :=
  unit (row X p) (row S0 p) (mat Wi) (mat A0) (vec b0) q

/-- Layer 1 at batch row p, unit q: driven by layer 0's new row. -/
def h1At (p : Fin R) (q : Fin 2048) : EReal :=
  unit (fun k => h0At X S0 Wi A0 b0 p k) (row S1 p) (mat A01) (mat A1) (vec b1) q

/-- Layer 2 at batch row p, unit q: driven by layer 1's new row. -/
def h2At (p : Fin R) (q : Fin 2048) : EReal :=
  unit (fun k => h1At X S0 S1 Wi A0 b0 A01 A1 b1 p k) (row S2 p) (mat A12) (mat A2) (vec b2) q

/-- The read-out at batch row p, output q: layer 2's new row against the output matrix. -/
def outAt (p : Fin R) (q : Fin 128) : EReal :=
  ∑ k, h2At X S0 S1 S2 Wi A0 b0 A01 A1 b1 A12 A2 b2 p k * Wo (ix2 k q)

/-- The three new states and the read-out as arrays over the batch. -/
def H0 : Arr R 2048 := fun i => h0At X S0 Wi A0 b0 (i 0) (i 1)
def H1 : Arr R 2048 := fun i => h1At X S0 S1 Wi A0 b0 A01 A1 b1 (i 0) (i 1)
def H2 : Arr R 2048 := fun i => h2At X S0 S1 S2 Wi A0 b0 A01 A1 b1 A12 A2 b2 (i 0) (i 1)
def Out : Arr R 128 := fun i => outAt X S0 S1 S2 Wi A0 b0 A01 A1 b1 A12 A2 b2 Wo (i 0) (i 1)

/-- The arrays read at an entry. -/
theorem H0_apply (p : Fin R) (q : Fin 2048) : H0 X S0 Wi A0 b0 (ix2 p q) = h0At X S0 Wi A0 b0 p q := rfl
theorem H1_apply (p : Fin R) (q : Fin 2048) :
    H1 X S0 S1 Wi A0 b0 A01 A1 b1 (ix2 p q) = h1At X S0 S1 Wi A0 b0 A01 A1 b1 p q := rfl
theorem H2_apply (p : Fin R) (q : Fin 2048) :
    H2 X S0 S1 S2 Wi A0 b0 A01 A1 b1 A12 A2 b2 (ix2 p q) = h2At X S0 S1 S2 Wi A0 b0 A01 A1 b1 A12 A2 b2 p q := rfl
theorem Out_apply (p : Fin R) (q : Fin 128) :
    Out X S0 S1 S2 Wi A0 b0 A01 A1 b1 A12 A2 b2 Wo (ix2 p q)
      = outAt X S0 S1 S2 Wi A0 b0 A01 A1 b1 A12 A2 b2 Wo p q := rfl

variable (X' : Arr R' 512) (S0' S1' S2' : Arr R' 2048)

/-- Layer 0 depends on the batch only through row p of the input and of its own state. -/
theorem h0At_rows (p : Fin R) (p' : Fin R') (hX : ∀ k : Fin 512, X (ix2 p k) = X' (ix2 p' k))
    (h0 : ∀ k : Fin 2048, S0 (ix2 p k) = S0' (ix2 p' k)) (q : Fin 2048) :
    h0At X S0 Wi A0 b0 p q = h0At X' S0' Wi A0 b0 p' q := by
  have eX : row X p = row X' p' := funext hX
  have e0 : row S0 p = row S0' p' := funext h0
  unfold h0At; rw [eX, e0]

/-- Layer 1 depends on the batch only through row p of the input and of the first two states. -/
theorem h1At_rows (p : Fin R) (p' : Fin R') (hX : ∀ k : Fin 512, X (ix2 p k) = X' (ix2 p' k))
    (h0 : ∀ k : Fin 2048, S0 (ix2 p k) = S0' (ix2 p' k)) (h1 : ∀ k : Fin 2048, S1 (ix2 p k) = S1' (ix2 p' k))
    (q : Fin 2048) :
    h1At X S0 S1 Wi A0 b0 A01 A1 b1 p q = h1At X' S0' S1' Wi A0 b0 A01 A1 b1 p' q := by
  have e1 : row S1 p = row S1' p' := funext h1
  unfold h1At
  rw [e1, funext fun k => h0At_rows X S0 Wi A0 b0 X' S0' p p' hX h0 k]

/-- Layer 2 depends on the batch only through row p of the input and of the three states. -/
theorem h2At_rows (p : Fin R) (p' : Fin R') (hX : ∀ k : Fin 512, X (ix2 p k) = X' (ix2 p' k))
    (h0 : ∀ k : Fin 2048, S0 (ix2 p k) = S0' (ix2 p' k)) (h1 : ∀ k : Fin 2048, S1 (ix2 p k) = S1' (ix2 p' k))
    (h2 : ∀ k : Fin 2048, S2 (ix2 p k) = S2' (ix2 p' k)) (q : Fin 2048) :
    h2At X S0 S1 S2 Wi A0 b0 A01 A1 b1 A12 A2 b2 p q
      = h2At X' S0' S1' S2' Wi A0 b0 A01 A1 b1 A12 A2 b2 p' q := by
  have e2 : row S2 p = row S2' p' := funext h2
  unfold h2At
  rw [e2, funext fun k => h1At_rows X S0 S1 Wi A0 b0 A01 A1 b1 X' S0' S1' p p' hX h0 h1 k]

/-- So does the read-out. -/
theorem outAt_rows (p : Fin R) (p' : Fin R') (hX : ∀ k : Fin 512, X (ix2 p k) = X' (ix2 p' k))
    (h0 : ∀ k : Fin 2048, S0 (ix2 p k) = S0' (ix2 p' k)) (h1 : ∀ k : Fin 2048, S1 (ix2 p k) = S1' (ix2 p' k))
    (h2 : ∀ k : Fin 2048, S2 (ix2 p k) = S2' (ix2 p' k)) (q : Fin 128) :
    outAt X S0 S1 S2 Wi A0 b0 A01 A1 b1 A12 A2 b2 Wo p q
      = outAt X' S0' S1' S2' Wi A0 b0 A01 A1 b1 A12 A2 b2 Wo p' q := by
  unfold outAt
  rw [funext fun k => h2At_rows X S0 S1 S2 Wi A0 b0 A01 A1 b1 A12 A2 b2 X' S0' S1' S2' p p' hX h0 h1 h2 k]

/-! ## The network of the sixteen argument arrays

  The batch's input a0 and previous states a1 a2 a3; the input matrix a4; per layer a recurrent matrix (a5, a8, a11)
  used without its diagonal and a bias vector (a6, a9, a12); the feed-forward matrices a7 and a10 used under the
  masks a14 and a15; the output matrix a13. -/

section Net

variable (a0 : Arr R 512) (a1 a2 a3 : Arr R 2048) (a4 : Arr 512 2048) (a5 : Arr 2048 2048)
  (a6 : (⟨1, ![2048]⟩ : Shape).Idx → EReal) (a7 a8 : Arr 2048 2048) (a9 : (⟨1, ![2048]⟩ : Shape).Idx → EReal)
  (a10 a11 : Arr 2048 2048) (a12 : (⟨1, ![2048]⟩ : Shape).Idx → EReal) (a13 : Arr 2048 128) (a14 a15 : Arr 2048 2048)

/-- Layer 0's new state. -/
def net0 : Arr R 2048 := H0 a0 a1 a4 (recur a5) (biasRow a6)
/-- Layer 1's new state. -/
def net1 : Arr R 2048 := H1 a0 a1 a2 a4 (recur a5) (biasRow a6) (mask a7 a14) (recur a8) (biasRow a9)
/-- Layer 2's new state. -/
def net2 : Arr R 2048 :=
  H2 a0 a1 a2 a3 a4 (recur a5) (biasRow a6) (mask a7 a14) (recur a8) (biasRow a9) (mask a10 a15) (recur a11)
    (biasRow a12)
/-- The read-out. -/
def net3 : Arr R 128 :=
  Out a0 a1 a2 a3 a4 (recur a5) (biasRow a6) (mask a7 a14) (recur a8) (biasRow a9) (mask a10 a15) (recur a11)
    (biasRow a12) a13

end Net

end Cert.Leaky

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Body.lean ====
/-
  The kernel body's four stored values, read at an entry of the block.

  At one grid point the body loads a block of 128 batch rows of the input and of the three states, and the whole of
  every weight matrix and bias row, and stores four blocks. Each matrix product goes into a zero accumulator, so at
  (p, q) it is the plain sum Σ k, lhs (p, k) · rhs (k, q); a narrowing of the float format is the identity on the
  extended reals; a bias row broadcast down the rows reads the row at q. So the first stored block is layer 0 of the
  loaded blocks, the second layer 1, the third layer 2, and the fourth the read-out — `Cert.Leaky`'s `h0At`, `h1At`,
  `h2At`, `outAt` at the blocks, entry by entry.
-/
import proofs.«135631_j40123584479552_1_alg».proof.Proof.Gen.KernelIdeal.Skeleton
import proofs.«135631_j40123584479552_1_alg».proof.Proof.Layer
import proofs.«135631_j40123584479552_1_alg».proof.Proof.LibPlainDot
import proofs.«135631_j40123584479552_1_alg».proof.Proof.LibRowBroadcasts
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Leaky
open scoped BigOperators

/-! ## The three products and the bias row, at an entry -/

/-- A block of 128 input rows against the 512 × 2048 input matrix. -/
theorem dot_in (l : FVec Ideal S128x512 .bf16) (r : FVec Ideal S512x2048 .bf16) (p : Fin 128) (q : Fin 2048) :
    matmul (F := Ideal) dot_S128x512_S512x2048_S128x2048_1_0_0_1_n_n none l r
        (constant (F := Ideal) S128x2048 .f32 0x00000000#32) (ix2 p q)
      = ∑ k : Fin 512, l (ix2 p k) * r (ix2 k q) :=
  Cert.Lib.PlainDot.matmul_zero_apply dot_S128x512_S512x2048_S128x2048_1_0_0_1_n_n.wf none l r p q

/-- A block of 128 state rows against a 2048 × 2048 matrix. -/
theorem dot_rec (l : FVec Ideal S128x2048 .bf16) (r : FVec Ideal S2048x2048 .bf16) (p : Fin 128) (q : Fin 2048) :
    matmul (F := Ideal) dot_S128x2048_S2048x2048_S128x2048_1_0_0_1_n_n none l r
        (constant (F := Ideal) S128x2048 .f32 0x00000000#32) (ix2 p q)
      = ∑ k : Fin 2048, l (ix2 p k) * r (ix2 k q) :=
  Cert.Lib.PlainDot.matmul_zero_apply dot_S128x2048_S2048x2048_S128x2048_1_0_0_1_n_n.wf none l r p q

/-- A block of 128 state rows against the 2048 × 128 output matrix. -/
theorem dot_out (l : FVec Ideal S128x2048 .bf16) (r : FVec Ideal S2048x128 .bf16) (p : Fin 128) (q : Fin 128) :
    matmul (F := Ideal) dot_S128x2048_S2048x128_S128x128_1_0_0_1_n_n none l r
        (constant (F := Ideal) S128x128 .f32 0x00000000#32) (ix2 p q)
      = ∑ k : Fin 2048, l (ix2 p k) * r (ix2 k q) :=
  Cert.Lib.PlainDot.matmul_zero_apply dot_S128x2048_S2048x128_S128x128_1_0_0_1_n_n.wf none l r p q

/-- A bias row broadcast down the 128 rows of a block. -/
theorem bias_apply (b : FVec Ideal S1x2048 .f32) (p : Fin 128) (q : Fin 2048) :
    broadcastTo S128x2048 b broadcasts_S1x2048_S128x2048 (ix2 p q) = b (ix2 (0 : Fin 1) q) :=
  Cert.Lib.Rows.bcastRow_apply b broadcasts_S1x2048_S128x2048 p q

/-! ## The payloads -/

/-- The first stored value is layer 0 of the loaded blocks. -/
theorem pay2_apply (x0 : Vec Ideal S128x512 .f32) (x1 : Vec Ideal S128x2048 .f32) (x4 : Vec Ideal S512x2048 .bf16)
    (x5 : Vec Ideal S2048x2048 .bf16) (x6 : Vec Ideal S1x2048 .f32) (p : Fin 128) (q : Fin 2048) :
    k0_pay2 (F := Ideal) x0 x1 x4 x5 x6 (ix2 p q) = h0At x0 x1 x4 x5 x6 p q := by
  unfold k0_pay2 h0At unit
  simp only [addf_apply, mulf_apply, maximumf_apply, broadcast_apply, shapeCast_self, dot_in, dot_rec, bias_apply]
  rfl

/-- Layer 0's new block against layer 1's feed-forward matrix. -/
theorem pay3_apply (x0 : Vec Ideal S128x512 .f32) (x1 : Vec Ideal S128x2048 .f32) (x4 : Vec Ideal S512x2048 .bf16)
    (x5 : Vec Ideal S2048x2048 .bf16) (x6 : Vec Ideal S1x2048 .f32) (x7 : Vec Ideal S2048x2048 .bf16)
    (p : Fin 128) (q : Fin 2048) :
    k0_pay3 (F := Ideal) x0 x1 x4 x5 x6 x7 (ix2 p q) = ∑ k : Fin 2048, h0At x0 x1 x4 x5 x6 p k * x7 (ix2 k q) := by
  unfold k0_pay3
  simp only [shapeCast_self, dot_rec]
  exact Finset.sum_congr rfl fun k _ => congrArg (· * x7 (ix2 k q)) (pay2_apply x0 x1 x4 x5 x6 p k)

/-- A layer's step whose feed-forward product is already formed: the state block v3, the product v28, the state
    block again as the recurrent product's left operand (v29), the recurrent matrix v31 and the bias row v34. -/
theorem pay6_apply (v3 : Vec Ideal S128x2048 .f32) (v28 : FVec Ideal S128x2048 .f32) (v29 : FVec Ideal S128x2048 .bf16)
    (v31 : FVec Ideal S2048x2048 .bf16) (v34 : Vec Ideal S1x2048 .f32) (p : Fin 128) (q : Fin 2048) :
    k0_pay6 (F := Ideal) v3 v28 v29 v31 v34 (ix2 p q)
      = v3 (ix2 p q) * keep
        + max ((v28 (ix2 p q) + ∑ k : Fin 2048, v29 (ix2 p k) * v31 (ix2 k q)) + v34 (ix2 (0 : Fin 1) q)) Leaky.floor
          * gain := by
  unfold k0_pay6
  simp only [addf_apply, mulf_apply, maximumf_apply, broadcast_apply, shapeCast_self, dot_rec, bias_apply]
  rfl

/-- The recurrent matrix passes through its cast unchanged. -/
theorem pay5_eq (x8 : Vec Ideal S2048x2048 .bf16) : k0_pay5 (F := Ideal) x8 = x8 := by
  unfold k0_pay5; exact shapeCast_self _ _

/-- The second stored value is layer 1 of the loaded blocks. -/
theorem out15_apply (x0 : Vec Ideal S128x512 .f32) (x1 x2 : Vec Ideal S128x2048 .f32) (x4 : Vec Ideal S512x2048 .bf16)
    (x5 : Vec Ideal S2048x2048 .bf16) (x6 : Vec Ideal S1x2048 .f32) (x7 x8 : Vec Ideal S2048x2048 .bf16)
    (x9 : Vec Ideal S1x2048 .f32) (p : Fin 128) (q : Fin 2048) :
    k0_pay6 (F := Ideal) x2 (k0_pay3 x0 x1 x4 x5 x6 x7) (k0_pay4 x2) (k0_pay5 x8) x9 (ix2 p q)
      = h1At x0 x1 x2 x4 x5 x6 x7 x8 x9 p q := by
  rw [pay6_apply, pay3_apply, pay5_eq]
  rfl

/-- The third layer's step over the second layer's new block: the state block v4, the second layer's block
    (`k0_pay6` of its operands) against the feed-forward matrix v47, the state block against the recurrent matrix
    v51, and the bias row v55. -/
theorem pay7_apply (v3 v4 : Vec Ideal S128x2048 .f32) (v28 : FVec Ideal S128x2048 .f32) (v29 : FVec Ideal S128x2048 .bf16)
    (v31 : FVec Ideal S2048x2048 .bf16) (v34 : Vec Ideal S1x2048 .f32) (v47 v51 : Vec Ideal S2048x2048 .bf16)
    (v55 : Vec Ideal S1x2048 .f32) (p : Fin 128) (q : Fin 2048) :
    k0_pay7 (F := Ideal) v3 v4 v28 v29 v31 v34 v47 v51 v55 (ix2 p q)
      = v4 (ix2 p q) * keep
        + max (((∑ k : Fin 2048, k0_pay6 (F := Ideal) v3 v28 v29 v31 v34 (ix2 p k) * v47 (ix2 k q))
                + ∑ k : Fin 2048, v4 (ix2 p k) * v51 (ix2 k q)) + v55 (ix2 (0 : Fin 1) q)) Leaky.floor
          * gain := by
  unfold k0_pay7
  simp only [addf_apply, mulf_apply, maximumf_apply, broadcast_apply, shapeCast_self, dot_rec, bias_apply]
  rfl

/-- The third stored value is layer 2 of the loaded blocks. -/
theorem out16_apply (x0 : Vec Ideal S128x512 .f32) (x1 x2 x3 : Vec Ideal S128x2048 .f32)
    (x4 : Vec Ideal S512x2048 .bf16) (x5 : Vec Ideal S2048x2048 .bf16) (x6 : Vec Ideal S1x2048 .f32)
    (x7 x8 : Vec Ideal S2048x2048 .bf16) (x9 : Vec Ideal S1x2048 .f32) (x10 x11 : Vec Ideal S2048x2048 .bf16)
    (x12 : Vec Ideal S1x2048 .f32) (p : Fin 128) (q : Fin 2048) :
    k0_pay7 (F := Ideal) x2 x3 (k0_pay3 x0 x1 x4 x5 x6 x7) (k0_pay4 x2) (k0_pay5 x8) x9 x10 x11 x12 (ix2 p q)
      = h2At x0 x1 x2 x3 x4 x5 x6 x7 x8 x9 x10 x11 x12 p q := by
  rw [pay7_apply]
  rw [Finset.sum_congr rfl fun k _ => congrArg (· * x10 (ix2 k q)) (out15_apply x0 x1 x2 x4 x5 x6 x7 x8 x9 p k)]
  rfl

/-- The fourth stored value is the read-out of the loaded blocks. -/
theorem out17_apply (x0 : Vec Ideal S128x512 .f32) (x1 x2 x3 : Vec Ideal S128x2048 .f32)
    (x4 : Vec Ideal S512x2048 .bf16) (x5 : Vec Ideal S2048x2048 .bf16) (x6 : Vec Ideal S1x2048 .f32)
    (x7 x8 : Vec Ideal S2048x2048 .bf16) (x9 : Vec Ideal S1x2048 .f32) (x10 x11 : Vec Ideal S2048x2048 .bf16)
    (x12 : Vec Ideal S1x2048 .f32) (x13 : Vec Ideal S2048x128 .bf16) (p : Fin 128) (q : Fin 128) :
    k0_pay1 (F := Ideal)
        (k0_pay8 x2 x3 (k0_pay3 x0 x1 x4 x5 x6 x7) (k0_pay4 x2) (k0_pay5 x8) x9 x10 x11 x12) x13 (ix2 p q)
      = outAt x0 x1 x2 x3 x4 x5 x6 x7 x8 x9 x10 x11 x12 x13 p q := by
  unfold k0_pay1
  simp only [shapeCast_self, dot_out]
  unfold outAt
  exact Finset.sum_congr rfl fun k _ =>
    congrArg (· * x13 (ix2 k q)) (out16_apply x0 x1 x2 x3 x4 x5 x6 x7 x8 x9 x10 x11 x12 p k)

end Cert.KernelIdeal.Body

end
-- ==== Proof.Arrays.lean ====
/-
  From the blocks the grid points write to the four result arrays.

  The grid has 16 points; point t works on batch rows 128 t … 128 t + 127. The input and the three states are staged
  128 rows at a time (block index (t, 0)); every weight matrix and bias row is staged whole (block index (0, 0)); the
  three new states and the read-out are written back 128 rows at a time. So a loaded row-block read at (p, k) is its
  array at (128 t + p, k), a loaded weight is its array, and what point t writes back to a result is the block of rows
  128 t … of one array — layer 0, 1, 2 or the read-out of the WHOLE batch (`Cert.Leaky.H0` … `Out`) — because a layer's
  row depends on its own batch row only (`h0At_rows` …). The 16 blocks of 128 rows cover the 2048 rows, so each result
  array ends as that array. The arrays the host prepares before the launch are read back as they were computed: a
  recurrent matrix times the off-diagonal matrix, a feed-forward matrix times its mask, a bias vector cast to a row,
  and two matrices only narrowed (the identity here).
-/
import proofs.«135631_j40123584479552_1_alg».proof.Proof.Gen.KernelIdeal.Value
import proofs.«135631_j40123584479552_1_alg».proof.Proof.Body
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.Leaky Idealize.ShloMosaic.StableHlo
open Idealize.ShloMosaic.Pipeline (Dat)

variable (m : (ℓ : Loc nD τ sig) → Buf (Elt Ideal) ℓ) (ρ : Dev nD → PrngReg)

/-! ## The index maps, over the 16 grid points -/

theorem hz : (![0, 0] : Fin 2 → Nat) = fun _ => 0 := funext fun a => by fin_cases a <;> rfl

/-- The row-blocked windows (the input, the three states, the four results) sit at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- The weights and bias rows sit at block (0, 0) at every point. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

theorem lt16 (t : Fin cfg0.N) : t.val < 16 := lt_of_lt_of_eq t.isLt N_0

/-- Row p of grid point t's block is batch row 128 t + p. -/
def brow (t : Fin cfg0.N) (p : Fin 128) : Fin 2048 :=
  ⟨t.val * 128 + p.val, by have := lt16 t; have := p.isLt; omega⟩

/-! ## The staged blocks, read where they sit in their arrays -/

/-- Window 0's block at point t, read at (p, k), is its array at (128 t + p, k). -/
theorem blk0 (c : Dev nD) (t : Fin cfg0.N) (p : Fin 128) (k : Fin 512) :
    iblk m c 0 t (ix2 p k) = V m c main_arg0 (ix2 (brow t p) k) := by
  show V m c main_arg0 (((cfg0.win 0).blk t).view.emb (ix2 p k)) = V m c main_arg0 (ix2 (brow t p) k)
  refine congrArg _ (funext fun a => Fin.ext ?_)
  obtain ⟨e0, e1, -⟩ := idx_rows t
  match a with
  | ⟨0, _⟩ => show win0_0.index t (0 : Fin 2) * 128 + 1 * p.val = t.val * 128 + p.val; rw [e0]; omega
  | ⟨1, _⟩ => show win0_0.index t (1 : Fin 2) * 512 + 1 * k.val = k.val; rw [e1]; omega

/-- Window 1's block at point t, read at (p, k), is its array at (128 t + p, k). -/
theorem blk1 (c : Dev nD) (t : Fin cfg0.N) (p : Fin 128) (k : Fin 2048) :
    iblk m c 1 t (ix2 p k) = V m c main_arg1 (ix2 (brow t p) k) := by
  show V m c main_arg1 (((cfg0.win 1).blk t).view.emb (ix2 p k)) = V m c main_arg1 (ix2 (brow t p) k)
  refine congrArg _ (funext fun a => Fin.ext ?_)
  obtain ⟨-, -, e0, e1, -⟩ := idx_rows t
  match a with
  | ⟨0, _⟩ => show win0_1.index t (0 : Fin 2) * 128 + 1 * p.val = t.val * 128 + p.val; rw [e0]; omega
  | ⟨1, _⟩ => show win0_1.index t (1 : Fin 2) * 2048 + 1 * k.val = k.val; rw [e1]; omega

/-- Window 2's block at point t, read at (p, k), is its array at (128 t + p, k). -/
theorem blk2 (c : Dev nD) (t : Fin cfg0.N) (p : Fin 128) (k : Fin 2048) :
    iblk m c 2 t (ix2 p k) = V m c main_arg2 (ix2 (brow t p) k) := by
  show V m c main_arg2 (((cfg0.win 2).blk t).view.emb (ix2 p k)) = V m c main_arg2 (ix2 (brow t p) k)
  refine congrArg _ (funext fun a => Fin.ext ?_)
  obtain ⟨-, -, -, -, e0, e1, -⟩ := idx_rows t
  match a with
  | ⟨0, _⟩ => show win0_2.index t (0 : Fin 2) * 128 + 1 * p.val = t.val * 128 + p.val; rw [e0]; omega
  | ⟨1, _⟩ => show win0_2.index t (1 : Fin 2) * 2048 + 1 * k.val = k.val; rw [e1]; omega

/-- Window 3's block at point t, read at (p, k), is its array at (128 t + p, k). -/
theorem blk3 (c : Dev nD) (t : Fin cfg0.N) (p : Fin 128) (k : Fin 2048) :
    iblk m c 3 t (ix2 p k) = V m c main_arg3 (ix2 (brow t p) k) := by
  show V m c main_arg3 (((cfg0.win 3).blk t).view.emb (ix2 p k)) = V m c main_arg3 (ix2 (brow t p) k)
  refine congrArg _ (funext fun a => Fin.ext ?_)
  obtain ⟨-, -, -, -, -, -, e0, e1, -⟩ := idx_rows t
  match a with
  | ⟨0, _⟩ => show win0_3.index t (0 : Fin 2) * 128 + 1 * p.val = t.val * 128 + p.val; rw [e0]; omega
  | ⟨1, _⟩ => show win0_3.index t (1 : Fin 2) * 2048 + 1 * k.val = k.val; rw [e1]; omega

/-- Window 4 stages its whole array at every point. -/
theorem whole4 (c : Dev nD) (t : Fin cfg0.N) :
    (iblk m c 4 t : Vec Ideal S512x2048 .bf16) = (V m c main_v18 : Vec Ideal S512x2048 .bf16) := by
  funext y
  show V m c main_v18 (((cfg0.win 4).blk t).view.emb y) = V m c main_v18 y
  refine congrArg _ (funext fun a => Fin.ext ?_)
  obtain ⟨e0, e1, -⟩ := idx_whole t
  match a with
  | ⟨0, _⟩ => show win0_4.index t (0 : Fin 2) * 512 + 1 * (y 0).val = (y 0).val; rw [e0]; omega
  | ⟨1, _⟩ => show win0_4.index t (1 : Fin 2) * 2048 + 1 * (y 1).val = (y 1).val; rw [e1]; omega

/-- Window 5 stages its whole array at every point. -/
theorem whole5 (c : Dev nD) (t : Fin cfg0.N) :
    (iblk m c 5 t : Vec Ideal S2048x2048 .bf16) = (V m c main_v9 : Vec Ideal S2048x2048 .bf16) := by
  funext y
  show V m c main_v9 (((cfg0.win 5).blk t).view.emb y) = V m c main_v9 y
  refine congrArg _ (funext fun a => Fin.ext ?_)
  obtain ⟨-, -, e0, e1, -⟩ := idx_whole t
  match a with
  | ⟨0, _⟩ => show win0_5.index t (0 : Fin 2) * 2048 + 1 * (y 0).val = (y 0).val; rw [e0]; omega
  | ⟨1, _⟩ => show win0_5.index t (1 : Fin 2) * 2048 + 1 * (y 1).val = (y 1).val; rw [e1]; omega

/-- Window 6 stages its whole array at every point. -/
theorem whole6 (c : Dev nD) (t : Fin cfg0.N) :
    (iblk m c 6 t : Vec Ideal S1x2048 .f32) = (V m c main_v20 : Vec Ideal S1x2048 .f32) := by
  funext y
  show V m c main_v20 (((cfg0.win 6).blk t).view.emb y) = V m c main_v20 y
  refine congrArg _ (funext fun a => Fin.ext ?_)
  obtain ⟨-, -, -, -, e0, e1, -⟩ := idx_whole t
  match a with
  | ⟨0, _⟩ => show win0_6.index t (0 : Fin 2) * 1 + 1 * (y 0).val = (y 0).val; rw [e0]; omega
  | ⟨1, _⟩ => show win0_6.index t (1 : Fin 2) * 2048 + 1 * (y 1).val = (y 1).val; rw [e1]; omega

/-- Window 7 stages its whole array at every point. -/
theorem whole7 (c : Dev nD) (t : Fin cfg0.N) :
    (iblk m c 7 t : Vec Ideal S2048x2048 .bf16) = (V m c main_v15 : Vec Ideal S2048x2048 .bf16) := by
  funext y
  show V m c main_v15 (((cfg0.win 7).blk t).view.emb y) = V m c main_v15 y
  refine congrArg _ (funext fun a => Fin.ext ?_)
  obtain ⟨-, -, -, -, -, -, e0, e1, -⟩ := idx_whole t
  match a with
  | ⟨0, _⟩ => show win0_7.index t (0 : Fin 2) * 2048 + 1 * (y 0).val = (y 0).val; rw [e0]; omega
  | ⟨1, _⟩ => show win0_7.index t (1 : Fin 2) * 2048 + 1 * (y 1).val = (y 1).val; rw [e1]; omega

/-- Window 8 stages its whole array at every point. -/
theorem whole8 (c : Dev nD) (t : Fin cfg0.N) :
    (iblk m c 8 t : Vec Ideal S2048x2048 .bf16) = (V m c main_v11 : Vec Ideal S2048x2048 .bf16) := by
  funext y
  show V m c main_v11 (((cfg0.win 8).blk t).view.emb y) = V m c main_v11 y
  refine congrArg _ (funext fun a => Fin.ext ?_)
  obtain ⟨-, -, -, -, -, -, -, -, e0, e1, -⟩ := idx_whole t
  match a with
  | ⟨0, _⟩ => show win0_8.index t (0 : Fin 2) * 2048 + 1 * (y 0).val = (y 0).val; rw [e0]; omega
  | ⟨1, _⟩ => show win0_8.index t (1 : Fin 2) * 2048 + 1 * (y 1).val = (y 1).val; rw [e1]; omega

/-- Window 9 stages its whole array at every point. -/
theorem whole9 (c : Dev nD) (t : Fin cfg0.N) :
    (iblk m c 9 t : Vec Ideal S1x2048 .f32) = (V m c main_v21 : Vec Ideal S1x2048 .f32) := by
  funext y
  show V m c main_v21 (((cfg0.win 9).blk t).view.emb y) = V m c main_v21 y
  refine congrArg _ (funext fun a => Fin.ext ?_)
  obtain ⟨-, -, -, -, -, -, -, -, -, -, e0, e1, -⟩ := idx_whole t
  match a with
  | ⟨0, _⟩ => show win0_9.index t (0 : Fin 2) * 1 + 1 * (y 0).val = (y 0).val; rw [e0]; omega
  | ⟨1, _⟩ => show win0_9.index t (1 : Fin 2) * 2048 + 1 * (y 1).val = (y 1).val; rw [e1]; omega

/-- Window 10 stages its whole array at every point. -/
theorem whole10 (c : Dev nD) (t : Fin cfg0.N) :
    (iblk m c 10 t : Vec Ideal S2048x2048 .bf16) = (V m c main_v17 : Vec Ideal S2048x2048 .bf16) := by
  funext y
  show V m c main_v17 (((cfg0.win 10).blk t).view.emb y) = V m c main_v17 y
  refine congrArg _ (funext fun a => Fin.ext ?_)
  obtain ⟨-, -, -, -, -, -, -, -, -, -, -, -, e0, e1, -⟩ := idx_whole t
  match a with
  | ⟨0, _⟩ => show win0_10.index t (0 : Fin 2) * 2048 + 1 * (y 0).val = (y 0).val; rw [e0]; omega
  | ⟨1, _⟩ => show win0_10.index t (1 : Fin 2) * 2048 + 1 * (y 1).val = (y 1).val; rw [e1]; omega

/-- Window 11 stages its whole array at every point. -/
theorem whole11 (c : Dev nD) (t : Fin cfg0.N) :
    (iblk m c 11 t : Vec Ideal S2048x2048 .bf16) = (V m c main_v13 : Vec Ideal S2048x2048 .bf16) := by
  funext y
  show V m c main_v13 (((cfg0.win 11).blk t).view.emb y) = V m c main_v13 y
  refine congrArg _ (funext fun a => Fin.ext ?_)
  obtain ⟨-, -, -, -, -, -, -, -, -, -, -, -, -, -, e0, e1, -⟩ := idx_whole t
  match a with
  | ⟨0, _⟩ => show win0_11.index t (0 : Fin 2) * 2048 + 1 * (y 0).val = (y 0).val; rw [e0]; omega
  | ⟨1, _⟩ => show win0_11.index t (1 : Fin 2) * 2048 + 1 * (y 1).val = (y 1).val; rw [e1]; omega

/-- Window 12 stages its whole array at every point. -/
theorem whole12 (c : Dev nD) (t : Fin cfg0.N) :
    (iblk m c 12 t : Vec Ideal S1x2048 .f32) = (V m c main_v22 : Vec Ideal S1x2048 .f32) := by
  funext y
  show V m c main_v22 (((cfg0.win 12).blk t).view.emb y) = V m c main_v22 y
  refine congrArg _ (funext fun a => Fin.ext ?_)
  obtain ⟨-, -, -, -, -, -, -, -, -, -, -, -, -, -, -, -, e0, e1, -⟩ := idx_whole t
  match a with
  | ⟨0, _⟩ => show win0_12.index t (0 : Fin 2) * 1 + 1 * (y 0).val = (y 0).val; rw [e0]; omega
  | ⟨1, _⟩ => show win0_12.index t (1 : Fin 2) * 2048 + 1 * (y 1).val = (y 1).val; rw [e1]; omega

/-- Window 13 stages its whole array at every point. -/
theorem whole13 (c : Dev nD) (t : Fin cfg0.N) :
    (iblk m c 13 t : Vec Ideal S2048x128 .bf16) = (V m c main_v19 : Vec Ideal S2048x128 .bf16) := by
  funext y
  show V m c main_v19 (((cfg0.win 13).blk t).view.emb y) = V m c main_v19 y
  refine congrArg _ (funext fun a => Fin.ext ?_)
  obtain ⟨-, -, -, -, -, -, -, -, -, -, -, -, -, -, -, -, -, -, e0, e1⟩ := idx_whole t
  match a with
  | ⟨0, _⟩ => show win0_13.index t (0 : Fin 2) * 2048 + 1 * (y 0).val = (y 0).val; rw [e0]; omega
  | ⟨1, _⟩ => show win0_13.index t (1 : Fin 2) * 128 + 1 * (y 1).val = (y 1).val; rw [e1]; omega

/-! ## The result blocks: where they sit, and that they cover their arrays -/

/-- Entry (p, q) of result window 14's block at point t is entry (128 t + p, q) of its array. -/
theorem emb14 (t : Fin cfg0.N) (p : Fin 128) (q : Fin 2048) :
    ((cfg0.win 14).blk t).view.emb (ix2 p q) = ix2 (brow t p) q := by
  refine funext fun a => Fin.ext ?_
  obtain ⟨-, -, -, -, -, -, -, -, e0, e1, -⟩ := idx_rows t
  match a with
  | ⟨0, _⟩ => show win0_14.index t (0 : Fin 2) * 128 + 1 * p.val = t.val * 128 + p.val; rw [e0]; omega
  | ⟨1, _⟩ => show win0_14.index t (1 : Fin 2) * 2048 + 1 * q.val = q.val; rw [e1]; omega

/-- An index of the array is in point t's block iff each coordinate is in the block's range on its axis. -/
theorem mem_blk14 (t : Fin cfg0.N) (i : S2048x2048.Idx) :
    i ∈ ((cfg0.win 14).blk t).view.set ↔ ∀ a : Fin 2, win0_14.index t a * S128x2048.size a ≤ (i a).val
      ∧ (i a).val < win0_14.index t a * S128x2048.size a + S128x2048.size a := by
  show i ∈ ((View.whole main_v23_0).slice (win0_14.rect t)).set ↔ _
  rw [View.set_slice_whole, Rect.mem_set_unit]
  exact Iff.rfl

/-- Row r of the array is in the block of point r / 128. -/
theorem cover14 (i : S2048x2048.Idx) :
    ∃ t : Fin cfg0.N, (cfg0.win 14).flush t = true ∧ i ∈ ((cfg0.win 14).blk t).view.set := by
  have hi0 : (i 0).val < 2048 := (i 0).isLt
  have hi1 : (i 1).val < 2048 := (i 1).isLt
  have ht : (i 0).val / 128 < cfg0.N := lt_of_lt_of_eq (by omega : (i 0).val / 128 < 16) N_0.symm
  obtain ⟨-, -, -, -, -, -, -, -, e0, e1, -⟩ := idx_rows ⟨(i 0).val / 128, ht⟩
  refine ⟨⟨(i 0).val / 128, ht⟩, flush0_14 _, ?_⟩
  rw [mem_blk14]
  intro a
  match a with
  | ⟨0, _⟩ =>
    show win0_14.index ⟨(i 0).val / 128, ht⟩ (0 : Fin 2) * 128 ≤ (i 0).val
      ∧ (i 0).val < win0_14.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_14.index ⟨(i 0).val / 128, ht⟩ (1 : Fin 2) * 2048 ≤ (i 1).val
      ∧ (i 1).val < win0_14.index ⟨(i 0).val / 128, ht⟩ (1 : Fin 2) * 2048 + 2048
    rw [e1]; omega

/-- Entry (p, q) of result window 15's block at point t is entry (128 t + p, q) of its array. -/
theorem emb15 (t : Fin cfg0.N) (p : Fin 128) (q : Fin 2048) :
    ((cfg0.win 15).blk t).view.emb (ix2 p q) = ix2 (brow t p) q := by
  refine funext fun a => Fin.ext ?_
  obtain ⟨-, -, -, -, -, -, -, -, -, -, e0, e1, -⟩ := idx_rows t
  match a with
  | ⟨0, _⟩ => show win0_15.index t (0 : Fin 2) * 128 + 1 * p.val = t.val * 128 + p.val; rw [e0]; omega
  | ⟨1, _⟩ => show win0_15.index t (1 : Fin 2) * 2048 + 1 * q.val = q.val; rw [e1]; omega

/-- An index of the array is in point t's block iff each coordinate is in the block's range on its axis. -/
theorem mem_blk15 (t : Fin cfg0.N) (i : S2048x2048.Idx) :
    i ∈ ((cfg0.win 15).blk t).view.set ↔ ∀ a : Fin 2, win0_15.index t a * S128x2048.size a ≤ (i a).val
      ∧ (i a).val < win0_15.index t a * S128x2048.size a + S128x2048.size a := by
  show i ∈ ((View.whole main_v23_1).slice (win0_15.rect t)).set ↔ _
  rw [View.set_slice_whole, Rect.mem_set_unit]
  exact Iff.rfl

/-- Row r of the array is in the block of point r / 128. -/
theorem cover15 (i : S2048x2048.Idx) :
    ∃ t : Fin cfg0.N, (cfg0.win 15).flush t = true ∧ i ∈ ((cfg0.win 15).blk t).view.set := by
  have hi0 : (i 0).val < 2048 := (i 0).isLt
  have hi1 : (i 1).val < 2048 := (i 1).isLt
  have ht : (i 0).val / 128 < cfg0.N := lt_of_lt_of_eq (by omega : (i 0).val / 128 < 16) N_0.symm
  obtain ⟨-, -, -, -, -, -, -, -, -, -, e0, e1, -⟩ := idx_rows ⟨(i 0).val / 128, ht⟩
  refine ⟨⟨(i 0).val / 128, ht⟩, flush0_15 _, ?_⟩
  rw [mem_blk15]
  intro a
  match a with
  | ⟨0, _⟩ =>
    show win0_15.index ⟨(i 0).val / 128, ht⟩ (0 : Fin 2) * 128 ≤ (i 0).val
      ∧ (i 0).val < win0_15.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_15.index ⟨(i 0).val / 128, ht⟩ (1 : Fin 2) * 2048 ≤ (i 1).val
      ∧ (i 1).val < win0_15.index ⟨(i 0).val / 128, ht⟩ (1 : Fin 2) * 2048 + 2048
    rw [e1]; omega

/-- Entry (p, q) of result window 16's block at point t is entry (128 t + p, q) of its array. -/
theorem emb16 (t : Fin cfg0.N) (p : Fin 128) (q : Fin 2048) :
    ((cfg0.win 16).blk t).view.emb (ix2 p q) = ix2 (brow t p) q := by
  refine funext fun a => Fin.ext ?_
  obtain ⟨-, -, -, -, -, -, -, -, -, -, -, -, e0, e1, -⟩ := idx_rows t
  match a with
  | ⟨0, _⟩ => show win0_16.index t (0 : Fin 2) * 128 + 1 * p.val = t.val * 128 + p.val; rw [e0]; omega
  | ⟨1, _⟩ => show win0_16.index t (1 : Fin 2) * 2048 + 1 * q.val = q.val; rw [e1]; omega

/-- An index of the array is in point t's block iff each coordinate is in the block's range on its axis. -/
theorem mem_blk16 (t : Fin cfg0.N) (i : S2048x2048.Idx) :
    i ∈ ((cfg0.win 16).blk t).view.set ↔ ∀ a : Fin 2, win0_16.index t a * S128x2048.size a ≤ (i a).val
      ∧ (i a).val < win0_16.index t a * S128x2048.size a + S128x2048.size a := by
  show i ∈ ((View.whole main_v23_2).slice (win0_16.rect t)).set ↔ _
  rw [View.set_slice_whole, Rect.mem_set_unit]
  exact Iff.rfl

/-- Row r of the array is in the block of point r / 128. -/
theorem cover16 (i : S2048x2048.Idx) :
    ∃ t : Fin cfg0.N, (cfg0.win 16).flush t = true ∧ i ∈ ((cfg0.win 16).blk t).view.set := by
  have hi0 : (i 0).val < 2048 := (i 0).isLt
  have hi1 : (i 1).val < 2048 := (i 1).isLt
  have ht : (i 0).val / 128 < cfg0.N := lt_of_lt_of_eq (by omega : (i 0).val / 128 < 16) N_0.symm
  obtain ⟨-, -, -, -, -, -, -, -, -, -, -, -, e0, e1, -⟩ := idx_rows ⟨(i 0).val / 128, ht⟩
  refine ⟨⟨(i 0).val / 128, ht⟩, flush0_16 _, ?_⟩
  rw [mem_blk16]
  intro a
  match a with
  | ⟨0, _⟩ =>
    show win0_16.index ⟨(i 0).val / 128, ht⟩ (0 : Fin 2) * 128 ≤ (i 0).val
      ∧ (i 0).val < win0_16.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_16.index ⟨(i 0).val / 128, ht⟩ (1 : Fin 2) * 2048 ≤ (i 1).val
      ∧ (i 1).val < win0_16.index ⟨(i 0).val / 128, ht⟩ (1 : Fin 2) * 2048 + 2048
    rw [e1]; omega

/-- Entry (p, q) of result window 17's block at point t is entry (128 t + p, q) of its array. -/
theorem emb17 (t : Fin cfg0.N) (p : Fin 128) (q : Fin 128) :
    ((cfg0.win 17).blk t).view.emb (ix2 p q) = ix2 (brow t p) q := by
  refine funext fun a => Fin.ext ?_
  obtain ⟨-, -, -, -, -, -, -, -, -, -, -, -, -, -, e0, e1⟩ := idx_rows t
  match a with
  | ⟨0, _⟩ => show win0_17.index t (0 : Fin 2) * 128 + 1 * p.val = t.val * 128 + p.val; rw [e0]; omega
  | ⟨1, _⟩ => show win0_17.index t (1 : Fin 2) * 128 + 1 * q.val = q.val; rw [e1]; omega

/-- An index of the array is in point t's block iff each coordinate is in the block's range on its axis. -/
theorem mem_blk17 (t : Fin cfg0.N) (i : S2048x128.Idx) :
    i ∈ ((cfg0.win 17).blk t).view.set ↔ ∀ a : Fin 2, win0_17.index t a * S128x128.size a ≤ (i a).val
      ∧ (i a).val < win0_17.index t a * S128x128.size a + S128x128.size a := by
  show i ∈ ((View.whole main_v23_3).slice (win0_17.rect t)).set ↔ _
  rw [View.set_slice_whole, Rect.mem_set_unit]
  exact Iff.rfl

/-- Row r of the array is in the block of point r / 128. -/
theorem cover17 (i : S2048x128.Idx) :
    ∃ t : Fin cfg0.N, (cfg0.win 17).flush t = true ∧ i ∈ ((cfg0.win 17).blk t).view.set := by
  have hi0 : (i 0).val < 2048 := (i 0).isLt
  have hi1 : (i 1).val < 128 := (i 1).isLt
  have ht : (i 0).val / 128 < cfg0.N := lt_of_lt_of_eq (by omega : (i 0).val / 128 < 16) N_0.symm
  obtain ⟨-, -, -, -, -, -, -, -, -, -, -, -, -, -, e0, e1⟩ := idx_rows ⟨(i 0).val / 128, ht⟩
  refine ⟨⟨(i 0).val / 128, ht⟩, flush0_17 _, ?_⟩
  rw [mem_blk17]
  intro a
  match a with
  | ⟨0, _⟩ =>
    show win0_17.index ⟨(i 0).val / 128, ht⟩ (0 : Fin 2) * 128 ≤ (i 0).val
      ∧ (i 0).val < win0_17.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_17.index ⟨(i 0).val / 128, ht⟩ (1 : Fin 2) * 128 ≤ (i 1).val
      ∧ (i 1).val < win0_17.index ⟨(i 0).val / 128, ht⟩ (1 : Fin 2) * 128 + 128
    rw [e1]; omega

/-! ## The arrays the host prepares, and the arguments, as the launch finds them -/

/-- The input matrix, only narrowed. -/
theorem V_v18 (c : Dev nD) :
    (V m c main_v18 : Vec Ideal S512x2048 .bf16) = m ((c : Thread nD τ).loc main_arg4) := by
  dsimp only [Gen.V, Gen.hostOps0]; after_results; rfl
/-- Layer 0's recurrent matrix without its diagonal. -/
theorem V_v9 (c : Dev nD) :
    (V m c main_v9 : Vec Ideal S2048x2048 .bf16) = recur (m ((c : Thread nD τ).loc main_arg5)) := by
  dsimp only [Gen.V, Gen.hostOps0]; after_results; rfl
/-- Layer 0's bias as a row. -/
theorem V_v20 (c : Dev nD) :
    (V m c main_v20 : Vec Ideal S1x2048 .f32) = biasRow (m ((c : Thread nD τ).loc main_arg6)) := by
  dsimp only [Gen.V, Gen.hostOps0]; after_results; rfl
/-- Layer 1's feed-forward matrix under its mask. -/
theorem V_v15 (c : Dev nD) :
    (V m c main_v15 : Vec Ideal S2048x2048 .bf16)
      = mask (m ((c : Thread nD τ).loc main_arg7)) (m ((c : Thread nD τ).loc main_arg14)) := by
  dsimp only [Gen.V, Gen.hostOps0]; after_results; rfl
/-- Layer 1's recurrent matrix without its diagonal. -/
theorem V_v11 (c : Dev nD) :
    (V m c main_v11 : Vec Ideal S2048x2048 .bf16) = recur (m ((c : Thread nD τ).loc main_arg8)) := by
  dsimp only [Gen.V, Gen.hostOps0]; after_results; rfl
/-- Layer 1's bias as a row. -/
theorem V_v21 (c : Dev nD) :
    (V m c main_v21 : Vec Ideal S1x2048 .f32) = biasRow (m ((c : Thread nD τ).loc main_arg9)) := by
  dsimp only [Gen.V, Gen.hostOps0]; after_results; rfl
/-- Layer 2's feed-forward matrix under its mask. -/
theorem V_v17 (c : Dev nD) :
    (V m c main_v17 : Vec Ideal S2048x2048 .bf16)
      = mask (m ((c : Thread nD τ).loc main_arg10)) (m ((c : Thread nD τ).loc main_arg15)) := by
  dsimp only [Gen.V, Gen.hostOps0]; after_results; rfl
/-- Layer 2's recurrent matrix without its diagonal. -/
theorem V_v13 (c : Dev nD) :
    (V m c main_v13 : Vec Ideal S2048x2048 .bf16) = recur (m ((c : Thread nD τ).loc main_arg11)) := by
  dsimp only [Gen.V, Gen.hostOps0]; after_results; rfl
/-- Layer 2's bias as a row. -/
theorem V_v22 (c : Dev nD) :
    (V m c main_v22 : Vec Ideal S1x2048 .f32) = biasRow (m ((c : Thread nD τ).loc main_arg12)) := by
  dsimp only [Gen.V, Gen.hostOps0]; after_results; rfl
/-- The output matrix, only narrowed. -/
theorem V_v19 (c : Dev nD) :
    (V m c main_v19 : Vec Ideal S2048x128 .bf16) = m ((c : Thread nD τ).loc main_arg13) := by
  dsimp only [Gen.V, Gen.hostOps0]; after_results; rfl

end Cert.KernelIdeal.Arrays

end
-- ==== Proof.Results.lean ====
/-
  The four result arrays after the run.

  What point t writes back to each result is the block of rows 128 t … of one array of the whole batch (a layer's row
  depends on its own batch row only), the 16 blocks cover the 2048 rows, so each result array ends as that array; with
  the arrays the host prepared read back, the four results are the network of the sixteen argument arrays
  (`Cert.Leaky.net0` … `net3`).
-/
import proofs.«135631_j40123584479552_1_alg».proof.Proof.Arrays

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.Leaky Idealize.ShloMosaic.StableHlo
open Idealize.ShloMosaic.Pipeline (Dat)

variable (m : (ℓ : Loc nD τ sig) → Buf (Elt Ideal) ℓ) (ρ : Dev nD → PrngReg)

/-! ## What each point writes back is a block of one array -/

/-- Point t writes back to the first result the rows 128 t … of layer 0 of the whole batch. -/
theorem flushed14_eq (c : Dev nD) (t : Fin cfg0.N) :
    (dats m 0 c).flushed 14 t = ((cfg0.win 14).blk t).view.read (Elt Ideal) (H0 (V m c main_arg0) (V m c main_arg1) (V m c main_v18) (V m c main_v9) (V m c main_v20)) := by
  rw [Value.flushed14]
  unfold out0_14
  rw [View.canon_unit_zero hz]
  simp only [View.ld_unit_zero (S := S128x512) hz, View.ld_unit_zero (S := S128x2048) hz,
    View.ld_unit_zero (S := S512x2048) hz, View.ld_unit_zero (S := S2048x2048) hz, View.ld_unit_zero (S := S1x2048) hz,
    View.ld_unit_zero (S := S2048x128) hz]
  funext j
  obtain ⟨p, q, rfl⟩ : ∃ (p : Fin 128) (q : Fin 2048), j = ix2 p q := ⟨j 0, j 1, eq_ix2 j⟩
  show k0_pay2 (F := Ideal) (iblk m c 0 t) (iblk m c 1 t) (iblk m c 4 t) (iblk m c 5 t) (iblk m c 6 t) (ix2 p q)
    = H0 (V m c main_arg0) (V m c main_arg1) (V m c main_v18) (V m c main_v9) (V m c main_v20) (((cfg0.win 14).blk t).view.emb (ix2 p q))
  rw [emb14 t p q, H0_apply]
  refine (Body.pay2_apply (iblk m c 0 t) (iblk m c 1 t) (iblk m c 4 t) (iblk m c 5 t) (iblk m c 6 t) p q).trans ?_
  rw [whole4 m c t, whole5 m c t, whole6 m c t]
  exact h0At_rows (R := 128) (R' := 2048) (iblk m c 0 t) (iblk m c 1 t) (V m c main_v18) (V m c main_v9) (V m c main_v20)
    (V m c main_arg0) (V m c main_arg1) p (brow t p) (fun k => blk0 m c t p k) (fun k => blk1 m c t p k) q

/-- Point t writes back to the second result the rows 128 t … of layer 1 of the whole batch. -/
theorem flushed15_eq (c : Dev nD) (t : Fin cfg0.N) :
    (dats m 0 c).flushed 15 t = ((cfg0.win 15).blk t).view.read (Elt Ideal) (H1 (V m c main_arg0) (V m c main_arg1) (V m c main_arg2) (V m c main_v18) (V m c main_v9) (V m c main_v20) (V m c main_v15) (V m c main_v11) (V m c main_v21)) := by
  rw [Value.flushed15]
  unfold out0_15
  rw [View.canon_unit_zero hz]
  simp only [View.ld_unit_zero (S := S128x512) hz, View.ld_unit_zero (S := S128x2048) hz,
    View.ld_unit_zero (S := S512x2048) hz, View.ld_unit_zero (S := S2048x2048) hz, View.ld_unit_zero (S := S1x2048) hz,
    View.ld_unit_zero (S := S2048x128) hz]
  funext j
  obtain ⟨p, q, rfl⟩ : ∃ (p : Fin 128) (q : Fin 2048), j = ix2 p q := ⟨j 0, j 1, eq_ix2 j⟩
  show k0_pay6 (F := Ideal) (iblk m c 2 t) (k0_pay3 (iblk m c 0 t) (iblk m c 1 t) (iblk m c 4 t) (iblk m c 5 t) (iblk m c 6 t) (iblk m c 7 t)) (k0_pay4 (iblk m c 2 t))
      (k0_pay5 (iblk m c 8 t)) (iblk m c 9 t) (ix2 p q)
    = H1 (V m c main_arg0) (V m c main_arg1) (V m c main_arg2) (V m c main_v18) (V m c main_v9) (V m c main_v20) (V m c main_v15) (V m c main_v11) (V m c main_v21) (((cfg0.win 15).blk t).view.emb (ix2 p q))
  rw [emb15 t p q, H1_apply]
  refine (Body.out15_apply (iblk m c 0 t) (iblk m c 1 t) (iblk m c 2 t) (iblk m c 4 t) (iblk m c 5 t) (iblk m c 6 t) (iblk m c 7 t) (iblk m c 8 t) (iblk m c 9 t) p q).trans ?_
  rw [whole4 m c t, whole5 m c t, whole6 m c t, whole7 m c t, whole8 m c t, whole9 m c t]
  exact h1At_rows (R := 128) (R' := 2048) (iblk m c 0 t) (iblk m c 1 t) (iblk m c 2 t) (V m c main_v18) (V m c main_v9) (V m c main_v20) (V m c main_v15) (V m c main_v11) (V m c main_v21)
    (V m c main_arg0) (V m c main_arg1) (V m c main_arg2) p (brow t p) (fun k => blk0 m c t p k) (fun k => blk1 m c t p k) (fun k => blk2 m c t p k) q

/-- Point t writes back to the third result the rows 128 t … of layer 2 of the whole batch. -/
theorem flushed16_eq (c : Dev nD) (t : Fin cfg0.N) :
    (dats m 0 c).flushed 16 t = ((cfg0.win 16).blk t).view.read (Elt Ideal) (H2 (V m c main_arg0) (V m c main_arg1) (V m c main_arg2) (V m c main_arg3) (V m c main_v18) (V m c main_v9) (V m c main_v20) (V m c main_v15) (V m c main_v11) (V m c main_v21) (V m c main_v17) (V m c main_v13) (V m c main_v22)) := by
  rw [Value.flushed16]
  unfold out0_16
  rw [View.canon_unit_zero hz]
  simp only [View.ld_unit_zero (S := S128x512) hz, View.ld_unit_zero (S := S128x2048) hz,
    View.ld_unit_zero (S := S512x2048) hz, View.ld_unit_zero (S := S2048x2048) hz, View.ld_unit_zero (S := S1x2048) hz,
    View.ld_unit_zero (S := S2048x128) hz]
  funext j
  obtain ⟨p, q, rfl⟩ : ∃ (p : Fin 128) (q : Fin 2048), j = ix2 p q := ⟨j 0, j 1, eq_ix2 j⟩
  show k0_pay7 (F := Ideal) (iblk m c 2 t) (iblk m c 3 t) (k0_pay3 (iblk m c 0 t) (iblk m c 1 t) (iblk m c 4 t) (iblk m c 5 t) (iblk m c 6 t) (iblk m c 7 t)) (k0_pay4 (iblk m c 2 t))
      (k0_pay5 (iblk m c 8 t)) (iblk m c 9 t) (iblk m c 10 t) (iblk m c 11 t) (iblk m c 12 t) (ix2 p q)
    = H2 (V m c main_arg0) (V m c main_arg1) (V m c main_arg2) (V m c main_arg3) (V m c main_v18) (V m c main_v9) (V m c main_v20) (V m c main_v15) (V m c main_v11) (V m c main_v21) (V m c main_v17) (V m c main_v13) (V m c main_v22) (((cfg0.win 16).blk t).view.emb (ix2 p q))
  rw [emb16 t p q, H2_apply]
  refine (Body.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q).trans ?_
  rw [whole4 m c t, whole5 m c t, whole6 m c t, whole7 m c t, whole8 m c t, whole9 m c t, whole10 m c t, whole11 m c t, whole12 m c t]
  exact h2At_rows (R := 128) (R' := 2048) (iblk m c 0 t) (iblk m c 1 t) (iblk m c 2 t) (iblk m c 3 t) (V m c main_v18) (V m c main_v9) (V m c main_v20) (V m c main_v15) (V m c main_v11) (V m c main_v21) (V m c main_v17) (V m c main_v13) (V m c main_v22)
    (V m c main_arg0) (V m c main_arg1) (V m c main_arg2) (V m c main_arg3) p (brow t p) (fun k => blk0 m c t p k) (fun k => blk1 m c t p k) (fun k => blk2 m c t p k) (fun k => blk3 m c t p k) q

/-- Point t writes back to the fourth result the rows 128 t … of the read-out of the whole batch. -/
theorem flushed17_eq (c : Dev nD) (t : Fin cfg0.N) :
    (dats m 0 c).flushed 17 t = ((cfg0.win 17).blk t).view.read (Elt Ideal) (Out (V m c main_arg0) (V m c main_arg1) (V m c main_arg2) (V m c main_arg3) (V m c main_v18) (V m c main_v9) (V m c main_v20) (V m c main_v15) (V m c main_v11) (V m c main_v21) (V m c main_v17) (V m c main_v13) (V m c main_v22) (V m c main_v19)) := by
  rw [Value.flushed17]
  unfold out0_17
  rw [View.canon_unit_zero hz]
  simp only [View.ld_unit_zero (S := S128x512) hz, View.ld_unit_zero (S := S128x2048) hz,
    View.ld_unit_zero (S := S512x2048) hz, View.ld_unit_zero (S := S2048x2048) hz, View.ld_unit_zero (S := S1x2048) hz,
    View.ld_unit_zero (S := S2048x128) hz]
  funext j
  obtain ⟨p, q, rfl⟩ : ∃ (p : Fin 128) (q : Fin 128), j = ix2 p q := ⟨j 0, j 1, eq_ix2 j⟩
  show k0_pay1 (F := Ideal) (k0_pay8 (iblk m c 2 t) (iblk m c 3 t) (k0_pay3 (iblk m c 0 t) (iblk m c 1 t) (iblk m c 4 t) (iblk m c 5 t) (iblk m c 6 t) (iblk m c 7 t))
      (k0_pay4 (iblk m c 2 t)) (k0_pay5 (iblk m c 8 t)) (iblk m c 9 t) (iblk m c 10 t) (iblk m c 11 t)
      (iblk m c 12 t)) (iblk m c 13 t) (ix2 p q)
    = Out (V m c main_arg0) (V m c main_arg1) (V m c main_arg2) (V m c main_arg3) (V m c main_v18) (V m c main_v9) (V m c main_v20) (V m c main_v15) (V m c main_v11) (V m c main_v21) (V m c main_v17) (V m c main_v13) (V m c main_v22) (V m c main_v19) (((cfg0.win 17).blk t).view.emb (ix2 p q))
  rw [emb17 t p q, Out_apply]
  refine (Body.out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [whole4 m c t, whole5 m c t, whole6 m c t, whole7 m c t, whole8 m c t, whole9 m c t, whole10 m c t, whole11 m c t, whole12 m c t, whole13 m c t]
  exact outAt_rows (R := 128) (R' := 2048) (iblk m c 0 t) (iblk m c 1 t) (iblk m c 2 t) (iblk m c 3 t) (V m c main_v18) (V m c main_v9) (V m c main_v20) (V m c main_v15) (V m c main_v11) (V m c main_v21) (V m c main_v17) (V m c main_v13) (V m c main_v22) (V m c main_v19)
    (V m c main_arg0) (V m c main_arg1) (V m c main_arg2) (V m c main_arg3) p (brow t p) (fun k => blk0 m c t p k) (fun k => blk1 m c t p k) (fun k => blk2 m c t p k) (fun k => blk3 m c t p k) q

/-! ## The arrays after the run -/

/-- The first result ends as layer 0's new state of the whole batch. -/
theorem final14 (c : Dev nD) :
    (dats m 0 c).arrAt 14 cfg0.N = net0 (R := 2048) (m ((c : Thread nD τ).loc main_arg0)) (m ((c : Thread nD τ).loc main_arg1)) (m ((c : Thread nD τ).loc main_arg4)) (m ((c : Thread nD τ).loc main_arg5)) (m ((c : Thread nD τ).loc main_arg6)) := by
  rw [(dats m 0 c).arrAt_eq_of_cover 14 (H0 (V m c main_arg0) (V m c main_arg1) (V m c main_v18) (V m c main_v9) (V m c main_v20)) (fun t _ => flushed14_eq m c t) cover14,
    V_main_arg0 m c, V_main_arg1 m c, V_v18 m c, V_v9 m c, V_v20 m c]
  rfl

/-- The second result ends as layer 1's new state of the whole batch. -/
theorem final15 (c : Dev nD) :
    (dats m 0 c).arrAt 15 cfg0.N = net1 (R := 2048) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) := by
  rw [(dats m 0 c).arrAt_eq_of_cover 15 (H1 (V m c main_arg0) (V m c main_arg1) (V m c main_arg2) (V m c main_v18) (V m c main_v9) (V m c main_v20) (V m c main_v15) (V m c main_v11) (V m c main_v21)) (fun t _ => flushed15_eq m c t) cover15,
    V_main_arg0 m c, V_main_arg1 m c, V_main_arg2 m c, V_v18 m c, V_v9 m c, V_v20 m c, V_v15 m c, V_v11 m c,
    V_v21 m c]
  rfl

/-- The third result ends as layer 2's new state of the whole batch. -/
theorem final16 (c : Dev nD) :
    (dats m 0 c).arrAt 16 cfg0.N = net2 (R := 2048) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15)) := by
  rw [(dats m 0 c).arrAt_eq_of_cover 16 (H2 (V m c main_arg0) (V m c main_arg1) (V m c main_arg2) (V m c main_arg3) (V m c main_v18) (V m c main_v9) (V m c main_v20) (V m c main_v15) (V m c main_v11) (V m c main_v21) (V m c main_v17) (V m c main_v13) (V m c main_v22)) (fun t _ => flushed16_eq m c t) cover16,
    V_main_arg0 m c, V_main_arg1 m c, V_main_arg2 m c, V_main_arg3 m c, V_v18 m c, V_v9 m c, V_v20 m c, V_v15 m c,
    V_v11 m c, V_v21 m c, V_v17 m c, V_v13 m c, V_v22 m c]
  rfl

/-- The fourth result ends as the read-out of the whole batch. -/
theorem final17 (c : Dev nD) :
    (dats m 0 c).arrAt 17 cfg0.N = net3 (R := 2048) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [(dats m 0 c).arrAt_eq_of_cover 17 (Out (V m c main_arg0) (V m c main_arg1) (V m c main_arg2) (V m c main_arg3) (V m c main_v18) (V m c main_v9) (V m c main_v20) (V m c main_v15) (V m c main_v11) (V m c main_v21) (V m c main_v17) (V m c main_v13) (V m c main_v22) (V m c main_v19)) (fun t _ => flushed17_eq m c t) cover17,
    V_main_arg0 m c, V_main_arg1 m c, V_main_arg2 m c, V_main_arg3 m c, V_v18 m c, V_v9 m c, V_v20 m c, V_v15 m c,
    V_v11 m c, V_v21 m c, V_v17 m c, V_v13 m c, V_v22 m c, V_v19 m c]
  rfl

/-! ## The run -/

/-- Every weakly fair execution of the idealized kernel ends with the four results at the network of its sixteen
    argument arrays, the arguments unchanged. -/
theorem run : θ_run defs (onTc (τ := τ) (main (F := Ideal))) ⟨m, fun _ => 0, ρ⟩ fun r => ∀ c : Dev nD,
      r.2.mem ((c : Thread nD τ).loc main_v23_0) = net0 (R := 2048) (m ((c : Thread nD τ).loc main_arg0)) (m ((c : Thread nD τ).loc main_arg1)) (m ((c : Thread nD τ).loc main_arg4)) (m ((c : Thread nD τ).loc main_arg5)) (m ((c : Thread nD τ).loc main_arg6))
      ∧ r.2.mem ((c : Thread nD τ).loc main_v23_1) = net1 (R := 2048) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14))
      ∧ r.2.mem ((c : Thread nD τ).loc main_v23_2)
          = net2 (R := 2048) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg15))
      ∧ r.2.mem ((c : Thread nD τ).loc main_v23_3)
          = net3 (R := 2048) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final14 m c), (h c).2.1.trans (final15 m c),
      (h c).2.2.1.trans (final16 m c), (h c).2.2.2.1.trans (final17 m c), (h c).2.2.2.2⟩)
    (Value.run_blocks m ρ)

end Cert.KernelIdeal.Arrays

end
-- ==== Proof.RefStages.lean ====
/-
  The reference's four results as the layers of the whole batch.

  The reference computes the same three steps and read-out on whole arrays: each product is the host's dot_general
  (at (p, q) the plain sum Σ k, lhs (p, k) · rhs (k, q)), the rectifier is a maximum against a splat of zero, the bias
  vector is broadcast to a row and then down the rows, and the two step constants are splats of the same two f32
  words the kernel uses. Read at (p, q), the first result is layer 0 of the batch at row p, unit q; the second is
  layer 1 over it; the third layer 2; the fourth the read-out: the network `Cert.Leaky.net0` … `net3` of the argument arrays (each
  recurrent matrix times the off-diagonal matrix, each feed-forward matrix times its mask, each bias vector as a row).
-/
import proofs.«135631_j40123584479552_1_alg».proof.Proof.Gen.ReferenceIdeal.Read
import proofs.«135631_j40123584479552_1_alg».proof.Proof.Layer
import proofs.«135631_j40123584479552_1_alg».proof.Proof.LibPlainDot
import proofs.«135631_j40123584479552_1_alg».proof.Proof.LibRowBroadcasts
import Idealize.ShloMosaic.Lib.Pipeline.Value
import Idealize.ShloMosaic.Lib.ValueIdx

noncomputable section

namespace Cert.ReferenceIdeal.Stages

open Cert.ReferenceIdeal Cert.ReferenceIdeal.Gen Cert.ReferenceIdeal.Read
open Idealize.ShloMosaic Idealize.ShloMosaic.ValueIdx Idealize.ShloMosaic.TcCoe Idealize.SL.Sem Cert.Leaky
open scoped BigOperators

/-! ## The operations that are not pointwise, at an entry -/

/-- A scalar constant broadcast to every entry. -/
theorem splat_apply {α : Type} (y : S_.Idx → α) (i : S2048x2048.Idx) :
    broadcastInDim S2048x2048 ![] bcast_S_S2048x2048 y i = y ix0 :=
  broadcastInDim_apply _ bcast_S_S2048x2048 y i ix0 (fun a => a.elim0)

/-- The batch's input against the 512 × 2048 input matrix. -/
theorem hdot_in (l : FVec Ideal S2048x512 .f32) (r : FVec Ideal S512x2048 .f32) (p q : Fin 2048) :
    Host.dotGeneral (F := Ideal) dot_S2048x512_S512x2048_S2048x2048_1_0_0_1_n_n none l r (ix2 p q)
      = ∑ k : Fin 512, l (ix2 p k) * r (ix2 k q) :=
  Cert.Lib.PlainDot.dotGeneral_apply dot_S2048x512_S512x2048_S2048x2048_1_0_0_1_n_n.wf none l r p q

/-- A state of the batch against a 2048 × 2048 matrix. -/
theorem hdot_rec (l r : FVec Ideal S2048x2048 .f32) (p q : Fin 2048) :
    Host.dotGeneral (F := Ideal) dot_S2048x2048_S2048x2048_S2048x2048_1_0_0_1_n_n none l r (ix2 p q)
      = ∑ k : Fin 2048, l (ix2 p k) * r (ix2 k q) :=
  Cert.Lib.PlainDot.dotGeneral_apply dot_S2048x2048_S2048x2048_S2048x2048_1_0_0_1_n_n.wf none l r p q

/-- A state of the batch against the 2048 × 128 output matrix. -/
theorem hdot_out (l : FVec Ideal S2048x2048 .f32) (r : FVec Ideal S2048x128 .f32) (p : Fin 2048) (q : Fin 128) :
    Host.dotGeneral (F := Ideal) dot_S2048x2048_S2048x128_S2048x128_1_0_0_1_n_n none l r (ix2 p q)
      = ∑ k : Fin 2048, l (ix2 p k) * r (ix2 k q) :=
  Cert.Lib.PlainDot.dotGeneral_apply dot_S2048x2048_S2048x128_S2048x128_1_0_0_1_n_n.wf none l r p q

/-- A bias row broadcast down the batch. -/
theorem hbias_apply {α : Type} (b : S1x2048.Idx → α) (p q : Fin 2048) :
    broadcastInDim S2048x2048 ![0, 1] bcast_S1x2048_S2048x2048_0_1 b (ix2 p q) = b (ix2 (0 : Fin 1) q) :=
  Cert.Lib.Rows.dimRow_apply b bcast_S1x2048_S2048x2048_0_1 p q

/-- The reference's 1 − identity is the off-diagonal matrix. -/
theorem val7_eq : val_main_v7 (F := Ideal) = offDiag := rfl

/-- The reference's bias row (the vector broadcast along dimension 1) is the vector cast to a row. -/
theorem bias_row (x : FVec Ideal S2048 .f32) :
    broadcastInDim S1x2048 ![1] bcast_S2048_S1x2048_1 x = biasRow x :=
  (Cert.Lib.Rows.castRow_eq_dimRow x (by decide) bcast_S2048_S1x2048_1).symm

theorem bias16 (x : FVec Ideal S2048 .f32) : val_main_v16 (F := Ideal) x = biasRow x := bias_row x
theorem bias29 (x : FVec Ideal S2048 .f32) : val_main_v29 (F := Ideal) x = biasRow x := bias_row x
theorem bias42 (x : FVec Ideal S2048 .f32) : val_main_v42 (F := Ideal) x = biasRow x := bias_row x

/-! ## The four results -/

/-- The first result is layer 0 of the batch. -/
theorem ref_h0 (x0 : FVec Ideal S2048x512 .f32) (x1 : FVec Ideal S2048x2048 .f32) (x4 : FVec Ideal S512x2048 .f32) (x5 : FVec Ideal S2048x2048 .f32)
    (x6 : FVec Ideal S2048 .f32) :
    val_main_v22 (F := Ideal) x0 x1 x4 x5 x6 = net0 x0 x1 x4 x5 x6 := by
  funext i
  obtain ⟨p, q, rfl⟩ : ∃ (p : Fin 2048) (q : Fin 2048), i = ix2 p q := ⟨i 0, i 1, eq_ix2 i⟩
  unfold val_main_v22 val_main_v21 val_main_v20 val_main_cst_1 val_main_v19 val_main_call0_v0 val_main_call0_cst
    val_main_v18 val_main_v17 val_main_v15 val_main_v14 val_main_v13 val_main_v12 val_main_v11 val_main_v10
    val_main_cst_0
  rw [val7_eq, bias16]
  simp only [addf_apply, mulf_apply, maximumf_apply, hdot_in, hdot_rec]
  rw [hbias_apply (biasRow x6) p q,
    splat_apply (constant (F := Ideal) S_ .f32 0x3F666666#32) (ix2 p q),
    splat_apply (constant (F := Ideal) S_ .f32 0x00000000#32) (ix2 p q),
    splat_apply (constant (F := Ideal) S_ .f32 0x3DCCCCCD#32) (ix2 p q)]
  rfl

/-- The second result is layer 1 of the batch. -/
theorem ref_h1 (x0 : FVec Ideal S2048x512 .f32) (x1 x2 : FVec Ideal S2048x2048 .f32) (x4 : FVec Ideal S512x2048 .f32) (x5 : FVec Ideal S2048x2048 .f32)
    (x6 : FVec Ideal S2048 .f32) (x7 x8 : FVec Ideal S2048x2048 .f32) (x9 : FVec Ideal S2048 .f32) (x14 : FVec Ideal S2048x2048 .f32) :
    val_main_v35 (F := Ideal) x0 x1 x2 x4 x5 x6 x7 x8 x9 x14
      = net1 x0 x1 x2 x4 x5 x6 x7 x8 x9 x14 := by
  funext i
  obtain ⟨p, q, rfl⟩ : ∃ (p : Fin 2048) (q : Fin 2048), i = ix2 p q := ⟨i 0, i 1, eq_ix2 i⟩
  unfold val_main_v35 val_main_v34 val_main_v33 val_main_cst_3 val_main_v32 val_main_call1_v0 val_main_call1_cst
    val_main_v31 val_main_v30 val_main_v28 val_main_v27 val_main_v26 val_main_v25 val_main_v24 val_main_v23
    val_main_cst_2
  rw [val7_eq, ref_h0, bias29]
  simp only [addf_apply, mulf_apply, maximumf_apply, hdot_rec]
  rw [hbias_apply (biasRow x9) p q,
    splat_apply (constant (F := Ideal) S_ .f32 0x3F666666#32) (ix2 p q),
    splat_apply (constant (F := Ideal) S_ .f32 0x00000000#32) (ix2 p q),
    splat_apply (constant (F := Ideal) S_ .f32 0x3DCCCCCD#32) (ix2 p q)]
  rfl

/-- The third result is layer 2 of the batch. -/
theorem ref_h2 (x0 : FVec Ideal S2048x512 .f32) (x1 x2 x3 : FVec Ideal S2048x2048 .f32) (x4 : FVec Ideal S512x2048 .f32)
    (x5 : FVec Ideal S2048x2048 .f32) (x6 : FVec Ideal S2048 .f32) (x7 x8 : FVec Ideal S2048x2048 .f32) (x9 : FVec Ideal S2048 .f32)
    (x10 x11 : FVec Ideal S2048x2048 .f32) (x12 : FVec Ideal S2048 .f32) (x14 x15 : FVec Ideal S2048x2048 .f32) :
    val_main_v48 (F := Ideal) x0 x1 x2 x3 x4 x5 x6 x7 x8 x9 x10 x11 x12 x14 x15
      = net2 x0 x1 x2 x3 x4 x5 x6 x7 x8 x9 x10 x11 x12 x14 x15 := by
  funext i
  obtain ⟨p, q, rfl⟩ : ∃ (p : Fin 2048) (q : Fin 2048), i = ix2 p q := ⟨i 0, i 1, eq_ix2 i⟩
  unfold val_main_v48 val_main_v47 val_main_v46 val_main_cst_5 val_main_v45 val_main_call2_v0 val_main_call2_cst
    val_main_v44 val_main_v43 val_main_v41 val_main_v40 val_main_v39 val_main_v38 val_main_v37 val_main_v36
    val_main_cst_4
  rw [val7_eq, ref_h1, bias42]
  simp only [addf_apply, mulf_apply, maximumf_apply, hdot_rec]
  rw [hbias_apply (biasRow x12) p q,
    splat_apply (constant (F := Ideal) S_ .f32 0x3F666666#32) (ix2 p q),
    splat_apply (constant (F := Ideal) S_ .f32 0x00000000#32) (ix2 p q),
    splat_apply (constant (F := Ideal) S_ .f32 0x3DCCCCCD#32) (ix2 p q)]
  rfl

/-- The fourth result is the read-out of the batch. -/
theorem ref_out (x0 : FVec Ideal S2048x512 .f32) (x1 x2 x3 : FVec Ideal S2048x2048 .f32) (x4 : FVec Ideal S512x2048 .f32)
    (x5 : FVec Ideal S2048x2048 .f32) (x6 : FVec Ideal S2048 .f32) (x7 x8 : FVec Ideal S2048x2048 .f32) (x9 : FVec Ideal S2048 .f32)
    (x10 x11 : FVec Ideal S2048x2048 .f32) (x12 : FVec Ideal S2048 .f32) (x13 : FVec Ideal S2048x128 .f32) (x14 x15 : FVec Ideal S2048x2048 .f32) :
    val_main_v49 (F := Ideal) x0 x1 x2 x3 x4 x5 x6 x7 x8 x9 x10 x11 x12 x13 x14 x15
      = net3 x0 x1 x2 x3 x4 x5 x6 x7 x8 x9 x10 x11 x12 x13 x14 x15 := by
  funext i
  obtain ⟨p, q, rfl⟩ : ∃ (p : Fin 2048) (q : Fin 128), i = ix2 p q := ⟨i 0, i 1, eq_ix2 i⟩
  unfold val_main_v49
  rw [ref_h2]
  simp only [hdot_out]
  rfl

/-! ## The run -/

/-- Every weakly fair execution of the idealized reference ends with its four results at the network of its sixteen
    argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = net0 (R := 2048) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_v35) = net1 (R := 2048) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14))
      ∧ r.2.mem ((c.tc : Thread nD τ).loc main_v48)
          = net2 (R := 2048) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15))
      ∧ r.2.mem ((c.tc : Thread nD τ).loc main_v49)
          = net3 (R := 2048) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (by rw [val_main_v22_eq, ref_h0]),
      (h c).2.1.trans (by rw [val_main_v35_eq, ref_h1]), (h c).2.2.1.trans (by rw [val_main_v48_eq, ref_h2]),
      (h c).2.2.2.1.trans (by rw [val_main_v49_eq, ref_out]), (h c).2.2.2.2⟩)
    (Cert.ReferenceIdeal.Value.run (F := Ideal) m ρ)

end Cert.ReferenceIdeal.Stages

end
-- ==== Proof.lean ====
/-
  The certificate of a three-layer leaky-integrator network with a linear read-out, computed 128 batch rows at a time
  by one kernel, against the same network computed on whole arrays.

  Both programs take a batch of 2048 input rows x, three previous states h0 h1 h2 (2048 units each), an input matrix,
  per layer a recurrent matrix and a bias, two feed-forward matrices with their masks, and an output matrix. Both
  first remove each recurrent matrix's diagonal (times 1 − identity) and thin each feed-forward matrix by its mask.
  A layer's new state at batch row p, unit q is

      h (p, q) · keep + max (Σ k, below (p, k) · Wx (k, q) + Σ k, h (p, k) · Wh (k, q) + b q) 0 · gain,

  with `below` the input for layer 0 and the layer below's NEW state for layers 1 and 2; the read-out is the last new
  state against the output matrix. keep and gain are the f32 words nearest 9/10 and 1/10 in both programs. The kernel
  narrows the operands of every product to bf16 first; on the extended reals that is the identity, and a product into
  a zero accumulator and the host's dot_general are the same finite sum. Both programs add the two products and the
  bias in the same order, so the two sides are the same expression entry by entry, and nothing has to be re-associated
  or distributed: the proof never uses that the inputs are finite.

  The kernel's side: each grid point writes rows 128 t … 128 t + 127 of each result, a layer's row depends on its own
  batch row only, and the 16 blocks cover the batch (Proof/Body.lean, Arrays.lean, Results.lean over the generated
  frame and value modules). The reference's side: its run read back one operation at a time (Proof/RefStages.lean over
  the generated run). Both end at `Cert.Leaky.net0` … `net3` of the sixteen argument arrays (Proof/Layer.lean).
-/
import proofs.«135631_j40123584479552_1_alg».proof.Defs
import proofs.«135631_j40123584479552_1_alg».proof.Proof.Gen.Kernel
import proofs.«135631_j40123584479552_1_alg».proof.Proof.Gen.Kernel.Skeleton
import proofs.«135631_j40123584479552_1_alg».proof.Proof.Gen.Kernel.Launch
import proofs.«135631_j40123584479552_1_alg».proof.Proof.Gen.Kernel.Points
import proofs.«135631_j40123584479552_1_alg».proof.Proof.Gen.Kernel.Frame
import proofs.«135631_j40123584479552_1_alg».proof.Proof.Gen.KernelIdeal
import proofs.«135631_j40123584479552_1_alg».proof.Proof.Gen.KernelIdeal.Skeleton
import proofs.«135631_j40123584479552_1_alg».proof.Proof.Gen.KernelIdeal.Launch
import proofs.«135631_j40123584479552_1_alg».proof.Proof.Gen.KernelIdeal.Points
import proofs.«135631_j40123584479552_1_alg».proof.Proof.Gen.KernelIdeal.Frame
import proofs.«135631_j40123584479552_1_alg».proof.Proof.Gen.ReferenceIdeal
import proofs.«135631_j40123584479552_1_alg».proof.Proof.Gen.Pre_finite_inputs
import proofs.«135631_j40123584479552_1_alg».proof.Proof.Gen.KernelIdeal.Value
import proofs.«135631_j40123584479552_1_alg».proof.Proof.Gen.ReferenceIdeal.Run
import proofs.«135631_j40123584479552_1_alg».proof.Proof.Gen.ReferenceIdeal.Read
import proofs.«135631_j40123584479552_1_alg».proof.Proof.Results
import proofs.«135631_j40123584479552_1_alg».proof.Proof.RefStages
import Idealize.ShloMosaic.Adequacy
import Idealize.ShloMosaic.Init

noncomputable section

namespace Cert.Proof

open Idealize.ShloMosaic Idealize.SL.Sem Cert.Kernel

/-- The kernel as printed runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the four results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The kernel read on the extended reals is the printed kernel's own text: nothing was rewritten. -/
theorem preserves : Cert.preserves_Kernel_KernelIdeal := trivial

open Cert.Leaky in
/-- Equal arguments give equal new states of layer 0, -/
theorem net0_congr {x0 y0 : Arr 2048 512} {x1 y1 : Arr 2048 2048} {x4 y4 : Arr 512 2048} {x5 y5 : Arr 2048 2048} {x6 y6 : (⟨1, ![2048]⟩ : Shape).Idx → EReal}
    (e0 : x0 = y0) (e1 : x1 = y1) (e4 : x4 = y4) (e5 : x5 = y5) (e6 : x6 = y6) :
    net0 (R := 2048) x0 x1 x4 x5 x6 = net0 (R := 2048) y0 y1 y4 y5 y6 := by
  subst e0 e1 e4 e5 e6; rfl

open Cert.Leaky in
/-- of layer 1, -/
theorem net1_congr {x0 y0 : Arr 2048 512} {x1 y1 : Arr 2048 2048} {x2 y2 : Arr 2048 2048} {x4 y4 : Arr 512 2048} {x5 y5 : Arr 2048 2048} {x6 y6 : (⟨1, ![2048]⟩ : Shape).Idx → EReal} {x7 y7 : Arr 2048 2048} {x8 y8 : Arr 2048 2048} {x9 y9 : (⟨1, ![2048]⟩ : Shape).Idx → EReal} {x14 y14 : Arr 2048 2048}
    (e0 : x0 = y0) (e1 : x1 = y1) (e2 : x2 = y2) (e4 : x4 = y4) (e5 : x5 = y5) (e6 : x6 = y6) (e7 : x7 = y7) (e8 : x8 = y8) (e9 : x9 = y9) (e14 : x14 = y14) :
    net1 (R := 2048) x0 x1 x2 x4 x5 x6 x7 x8 x9 x14 = net1 (R := 2048) y0 y1 y2 y4 y5 y6 y7 y8 y9 y14 := by
  subst e0 e1 e2 e4 e5 e6 e7 e8 e9 e14; rfl

open Cert.Leaky in
/-- of layer 2, -/
theorem net2_congr {x0 y0 : Arr 2048 512} {x1 y1 : Arr 2048 2048} {x2 y2 : Arr 2048 2048} {x3 y3 : Arr 2048 2048} {x4 y4 : Arr 512 2048} {x5 y5 : Arr 2048 2048} {x6 y6 : (⟨1, ![2048]⟩ : Shape).Idx → EReal} {x7 y7 : Arr 2048 2048} {x8 y8 : Arr 2048 2048} {x9 y9 : (⟨1, ![2048]⟩ : Shape).Idx → EReal} {x10 y10 : Arr 2048 2048} {x11 y11 : Arr 2048 2048} {x12 y12 : (⟨1, ![2048]⟩ : Shape).Idx → EReal} {x14 y14 : Arr 2048 2048} {x15 y15 : Arr 2048 2048}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e14 : x14 = y14) (e15 : x15 = y15) :
    net2 (R := 2048) x0 x1 x2 x3 x4 x5 x6 x7 x8 x9 x10 x11 x12 x14 x15 = net2 (R := 2048) y0 y1 y2 y3 y4 y5 y6 y7 y8 y9 y10 y11 y12 y14 y15 := by
  subst e0 e1 e2 e3 e4 e5 e6 e7 e8 e9 e10 e11 e12 e14 e15; rfl

open Cert.Leaky in
/-- and equal read-outs. -/
theorem net3_congr {x0 y0 : Arr 2048 512} {x1 y1 : Arr 2048 2048} {x2 y2 : Arr 2048 2048} {x3 y3 : Arr 2048 2048} {x4 y4 : Arr 512 2048} {x5 y5 : Arr 2048 2048} {x6 y6 : (⟨1, ![2048]⟩ : Shape).Idx → EReal} {x7 y7 : Arr 2048 2048} {x8 y8 : Arr 2048 2048} {x9 y9 : (⟨1, ![2048]⟩ : Shape).Idx → EReal} {x10 y10 : Arr 2048 2048} {x11 y11 : Arr 2048 2048} {x12 y12 : (⟨1, ![2048]⟩ : Shape).Idx → EReal} {x13 y13 : Arr 2048 128} {x14 y14 : Arr 2048 2048} {x15 y15 : Arr 2048 2048}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) :
    net3 (R := 2048) x0 x1 x2 x3 x4 x5 x6 x7 x8 x9 x10 x11 x12 x13 x14 x15 = net3 (R := 2048) y0 y1 y2 y3 y4 y5 y6 y7 y8 y9 y10 y11 y12 y13 y14 y15 := by
  subst e0 e1 e2 e3 e4 e5 e6 e7 e8 e9 e10 e11 e12 e13 e14 e15; rfl

/-- From memories that agree on the sixteen arguments both programs end with the network of those arguments in their
    four results: the kernel's run and the reference's run state the same four arrays. -/
theorem algebraic : Cert.algebraic_KernelIdeal_ReferenceIdeal := by
  intro m ρ m' ρ' _ hagree
  refine ⟨_, _, _, _, Cert.KernelIdeal.Arrays.run m ρ, ?_⟩
  refine (θ_run Cert.ReferenceIdeal.defs _ _).mono (fun r h c => ?_) (Cert.ReferenceIdeal.Stages.run m' ρ')
  obtain ⟨a0, a1, a2, a3, a4, a5, a6, a7, a8, a9, a10, a11, a12, a13, a14, a15⟩ := hagree c
  obtain ⟨r0, r1, r2, r3, rest⟩ := h c
  exact ⟨r0.trans (net0_congr a0 a1 a4 a5 a6),
    r1.trans (net1_congr a0 a1 a2 a4 a5 a6 a7 a8 a9 a14),
    r2.trans (net2_congr a0 a1 a2 a3 a4 a5 a6 a7 a8 a9 a10 a11 a12 a14 a15),
    r3.trans (net3_congr a0 a1 a2 a3 a4 a5 a6 a7 a8 a9 a10 a11 a12 a13 a14 a15), rest⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
